-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  main_v53

def fn_part2 {F : FTy → Type} [FloatOps F] (main_arg9 : FVec F S128x128 .f32) (main_arg10 : FVec F S128 .f32) (main_arg11 : FVec F S128x1 .f32) (main_arg12 : FVec F S1 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x1 .f32 := Host.absf main_arg11
  let main_cst_16 : FVec F S_ .f32 := constant S_ .f32 0x7F800000#32
  let main_v45 : FVec F S128x1 .f32 := broadcastInDim S128x1 ![] bcast_S_S128x1 main_cst_16
  let main_v46 : IVec S128x1 1 := cmpf .olt main_v44 main_v45
  let main_c_17 : IVec S_ 1 := constantI S_ 1 1#1
  let main_v47 : IVec S_ 1 := (fun x v => Host.reduce IntOp.andi x v reducesTo_S128x1_S_d0_1 h_S_) main_v46 main_c_17
  let main_v48 : IVec S_ 1 := andi main_v43 main_v47
  let main_v49 : FVec F S1 .f32 := Host.absf main_arg12
  let main_cst_18 : FVec F S_ .f32 := constant S_ .f32 0x7F800000#32
  let main_v50 : FVec F S1 .f32 := broadcastInDim S1 ![] bcast_S_S1 main_cst_18
  fn_part3 (F := F) main_v48 main_v49 main_v50

def fn_part1 {F : FTy → Type} [FloatOps F] (main_arg6 : FVec F S128x128 .f32) (main_arg7 : FVec F S128 .f32) (main_arg8 : FVec F S128x128 .f32) (main_arg9 : FVec F S128x128 .f32) (main_arg10 : FVec F S128 .f32) (main_arg11 : FVec F S128x1 .f32) (main_arg12 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_arg10 main_arg11 main_arg12 main_v33

def fn {F : FTy → Type} [FloatOps F] (main_arg0 : FVec F S50000x128 .f32) (main_arg1 : IVec S2x800000 32) (main_arg2 : IVec S50000 32) (main_arg3 : FVec F S128x128 .f32) (main_arg4 : FVec F S128 .f32) (main_arg5 : FVec F S128x128 .f32) (main_arg6 : FVec F S128x128 .f32) (main_arg7 : FVec F S128 .f32) (main_arg8 : FVec F S128x128 .f32) (main_arg9 : FVec F S128x128 .f32) (main_arg10 : FVec F S128 .f32) (main_arg11 : FVec F S128x1 .f32) (main_arg12 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_arg11 main_arg12 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x800000 : Shape := ⟨2, ![1, 800000]⟩
abbrev S800000 : Shape := ⟨1, ![800000]⟩
abbrev S256x128 : Shape := ⟨2, ![256, 128]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩
abbrev S5000x128 : Shape := ⟨2, ![5000, 128]⟩
abbrev S5000x256 : Shape := ⟨2, ![5000, 256]⟩
abbrev S50000x1 : Shape := ⟨2, ![50000, 1]⟩
abbrev S256 : Shape := ⟨1, ![256]⟩
abbrev S256x1 : Shape := ⟨2, ![256, 1]⟩
abbrev S1x1 : Shape := ⟨2, ![1, 1]⟩

abbrev nBuf : Space → Nat
  | .hbm => 71
  | .vmem => 22
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128x128, .f32⟩
  | .hbm, ⟨10, _⟩ => ⟨S128, .f32⟩
  | .hbm, ⟨11, _⟩ => ⟨S128x1, .f32⟩
  | .hbm, ⟨12, _⟩ => ⟨S1, .f32⟩
  | .hbm, ⟨13, _⟩ => ⟨S1x800000, .i32⟩
  | .hbm, ⟨14, _⟩ => ⟨S800000, .i32⟩
  | .hbm, ⟨15, _⟩ => ⟨S1x800000, .i32⟩
  | .hbm, ⟨16, _⟩ => ⟨S800000, .i32⟩
  | .hbm, ⟨17, _⟩ => ⟨S256x128, .f32⟩
  | .hbm, ⟨18, _⟩ => ⟨S256x128, .f32⟩
  | .hbm, ⟨19, _⟩ => ⟨S50000x128, .bf16⟩
  | .hbm, ⟨20, _⟩ => ⟨S_, .i32⟩
  | .hbm, ⟨21, _⟩ => ⟨S800000, .i32⟩
  | .hbm, ⟨22, _⟩ => ⟨S800000, .i1⟩
  | .hbm, ⟨23, _⟩ => ⟨S_, .i32⟩
  | .hbm, ⟨24, _⟩ => ⟨S800000, .i32⟩
  | .hbm, ⟨25, _⟩ => ⟨S800000, .i32⟩
  | .hbm, ⟨26, _⟩ => ⟨S800000, .i32⟩
  | .hbm, ⟨27, _⟩ => ⟨S800000x1, .i32⟩
  | .hbm, ⟨28, _⟩ => ⟨S800000x128, .bf16⟩
  | .hbm, ⟨29, _⟩ => ⟨S800000x128, .f32⟩
  | .hbm, ⟨30, _⟩ => ⟨S_, .f32⟩
  | .hbm, ⟨31, _⟩ => ⟨S50000x128, .f32⟩
  | .hbm, ⟨32, _⟩ => ⟨S800000x1, .i32⟩
  | .hbm, ⟨33, _⟩ => ⟨S50000x128, .f32⟩
  | .hbm, ⟨34, _⟩ => ⟨S1x128, .f32⟩
  | .hbm, ⟨35, _⟩ => ⟨S50000x128, .bf16⟩
  | .hbm, ⟨36, _⟩ => ⟨S_, .i32⟩
  | .hbm, ⟨37, _⟩ => ⟨S800000, .i32⟩
  | .hbm, ⟨38, _⟩ => ⟨S800000, .i1⟩
  | .hbm, ⟨39, _⟩ => ⟨S_, .i32⟩
  | .hbm, ⟨40, _⟩ => ⟨S800000, .i32⟩
  | .hbm, ⟨41, _⟩ => ⟨S800000, .i32⟩
  | .hbm, ⟨42, _⟩ => ⟨S800000, .i32⟩
  | .hbm, ⟨43, _⟩ => ⟨S800000x1, .i32⟩
  | .hbm, ⟨44, _⟩ => ⟨S800000x128, .bf16⟩
  | .hbm, ⟨45, _⟩ => ⟨S800000x128, .f32⟩
  | .hbm, ⟨46, _⟩ => ⟨S_, .f32⟩
  | .hbm, ⟨47, _⟩ => ⟨S50000x128, .f32⟩
  | .hbm, ⟨48, _⟩ => ⟨S800000x1, .i32⟩
  | .hbm, ⟨49, _⟩ => ⟨S50000x128, .f32⟩
  | .hbm, ⟨50, _⟩ => ⟨S1x128, .f32⟩
  | .hbm, ⟨51, _⟩ => ⟨S50000x128, .f32⟩
  | .hbm, ⟨52, _⟩ => ⟨S_, .f32⟩
  | .hbm, ⟨53, _⟩ => ⟨S256x128, .f32⟩
  | .hbm, ⟨54, _⟩ => ⟨S50000x1, .i32⟩
  | .hbm, ⟨55, _⟩ => ⟨S256x128, .f32⟩
  | .hbm, ⟨56, _⟩ => ⟨S_, .f32⟩
  | .hbm, ⟨57, _⟩ => ⟨S50000, .f32⟩
  | .hbm, ⟨58, _⟩ => ⟨S_, .f32⟩
  | .hbm, ⟨59, _⟩ => ⟨S256, .f32⟩
  | .hbm, ⟨60, _⟩ => ⟨S50000x1, .i32⟩
  | .hbm, ⟨61, _⟩ => ⟨S256, .f32⟩
  | .hbm, ⟨62, _⟩ => ⟨S_, .f32⟩
  | .hbm, ⟨63, _⟩ => ⟨S256, .f32⟩
  | .hbm, ⟨64, _⟩ => ⟨S256, .f32⟩
  | .hbm, ⟨65, _⟩ => ⟨S256x1, .f32⟩
  | .hbm, ⟨66, _⟩ => ⟨S256x128, .f32⟩
  | .hbm, ⟨67, _⟩ => ⟨S256x128, .f32⟩
  | .hbm, ⟨68, _⟩ => ⟨S1x128, .f32⟩
  | .hbm, ⟨69, _⟩ => ⟨S1x1, .f32⟩
  | .hbm, ⟨70, _⟩ => ⟨S256x1, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S256x128, .f32⟩
  | .local _ .vmem, ⟨5, _⟩ => ⟨S1x128, .f32⟩
  | .local _ .vmem, ⟨6, _⟩ => ⟨S5000x128, .bf16⟩
  | .local _ .vmem, ⟨7, _⟩ => ⟨S5000x128, .bf16⟩
  | .local _ .vmem, ⟨8, _⟩ => ⟨S5000x128, .f32⟩
  | .local _ .vmem, ⟨9, _⟩ => ⟨S5000x128, .f32⟩
  | .local _ .vmem, ⟨10, _⟩ => ⟨S5000x128, .bf16⟩
  | .local _ .vmem, ⟨11, _⟩ => ⟨S5000x128, .bf16⟩
  | .local _ .vmem, ⟨12, _⟩ => ⟨S256x128, .f32⟩
  | .local _ .vmem, ⟨13, _⟩ => ⟨S1x128, .f32⟩
  | .local _ .vmem, ⟨14, _⟩ => ⟨S5000x128, .f32⟩
  | .local _ .vmem, ⟨15, _⟩ => ⟨S5000x128, .f32⟩
  | .local _ .vmem, ⟨16, _⟩ => ⟨S256x128, .f32⟩
  | .local _ .vmem, ⟨17, _⟩ => ⟨S128x128, .f32⟩
  | .local _ .vmem, ⟨18, _⟩ => ⟨S1x128, .f32⟩
  | .local _ .vmem, ⟨19, _⟩ => ⟨S128x1, .f32⟩
  | .local _ .vmem, ⟨20, _⟩ => ⟨S1x1, .f32⟩
  | .local _ .vmem, ⟨21, _⟩ => ⟨S256x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_c : Ref sig .tc := ⟨.hbm, 20, rfl⟩
abbrev main_v7 : Ref sig .tc := ⟨.hbm, 21, rfl⟩
abbrev main_v8 : Ref sig .tc := ⟨.hbm, 22, rfl⟩
abbrev main_c_0 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_c_1 : Ref sig .tc := ⟨.hbm, 36, rfl⟩
abbrev main_v20 : Ref sig .tc := ⟨.hbm, 37, rfl⟩
abbrev main_v21 : Ref sig .tc := ⟨.hbm, 38, rfl⟩
abbrev main_c_2 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_3 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_4 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_5 : Ref sig .tc := ⟨.hbm, 56, rfl⟩
abbrev main_v36 : Ref sig .tc := ⟨.hbm, 57, rfl⟩
abbrev main_cst_6 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_7 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg5_0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15
abbrev cc2_sem0_0 : DmaSem sig := 16
abbrev cc2_sem1_0 : DmaSem sig := 17
abbrev cc2_sem2_0 : DmaSem sig := 18
abbrev cc2_sem3_0 : DmaSem sig := 19
abbrev cc2_sem4_0 : DmaSem sig := 20
abbrev cc2_sem5_0 : DmaSem sig := 21

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S256x128 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S256x1 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S128x128_S128x128_S256x128_d0 : Shape.Concatenates [S128x128, S128x128] S256x128 0
  bitsLt_bf16_f32 : FTy.bits .bf16 < FTy.bits .f32
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  concatenates_S5000x128_S5000x128_S5000x256_d1 : Shape.Concatenates [S5000x128, S5000x128] S5000x256 1
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  packedbf16_S5000x128_S5000x128_0_0 : (Rect.unit (s := S5000x128) ![0, 0] S5000x128.size inb_S5000x128_S5000x128_0_0).PackedRows (EltTy.packing .bf16)
  bcast_S_S256x128 : S_.BroadcastsInDim S256x128 (![] : Fin 0 → Fin S256x128.rank)
  bcast_S50000_S50000x1_0 : S50000.BroadcastsInDim S50000x1 (![0] : Fin 1 → Fin S50000x1.rank)
  bcast_S_S50000 : S_.BroadcastsInDim S50000 (![] : Fin 0 → Fin S50000.rank)
  bcast_S_S256 : S_.BroadcastsInDim S256 (![] : Fin 0 → Fin S256.rank)
  bcast_S256_S256x1_0 : S256.BroadcastsInDim S256x1 (![0] : Fin 1 → Fin S256x1.rank)
  bcast_S256x1_S256x128_0_1 : S256x1.BroadcastsInDim S256x128 (![0, 1] : Fin 2 → Fin S256x128.rank)
  shapeCasts_S1_S1x1 : S1.ShapeCasts S1x1
  inb_S128x128_S128x128_0_0 : ∀ a, (![0, 0] : Fin 2 → Nat) a + S128x128.size a ≤ S128x128.size a
  h_S128x128 : 0 < S128x128.numel
  broadcasts_S1x128_S256x128 : S1x128.Broadcasts S256x128
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S256x1 : S1x1.Broadcasts S256x1
  inb_S256x1_S256x1_0_0 : ∀ a, (![0, 0] : Fin 2 → Nat) a + S256x1.size a ≤ S256x1.size a
  h_S256x1 : 0 < S256x1.numel
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x256_S256x128_S5000x128_1_0_0_1_n_n_wf : DotDims.WF S5000x256 S256x128 S5000x128 [1] [0] [0] [1] [] []
  scatter_S256x128_S50000x1_S50000x128_1_0_0_1_wf : ScatterDims.WF S256x128 S50000x1 S50000x128 [1] [0] [0] 1
  scatter_S256_S50000x1_S50000_n_0_0_1_wf : ScatterDims.WF S256 S50000x1 S50000 [] [0] [0] 1
  dot_S256x128_S128x128_S256x128_1_0_0_1_n_n_wf : DotDims.WF S256x128 S128x128 S256x128 [1] [0] [0] [1] [] []
  dot_S256x128_S128x1_S256x1_1_0_0_1_n_n_wf : DotDims.WF S256x128 S128x1 S256x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x128.size a ≤ S256x128.size a
  hwx0_2 : ∀ i : grid0.Coords, EltTy.bits .f32 = 32 ∨ (Rect.block (s := S256x128) S256x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S50000x128.size a
  hwx0_4 : ∀ i : grid0.Coords, EltTy.bits .bf16 = 32 ∨ (Rect.block (s := S50000x128) S5000x128.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .bf16 = 32 ∨ (Rect.block (s := S50000x128) S5000x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x128.size a ≤ S256x128.size a
  hwx1_2 : ∀ i : grid1.Coords, EltTy.bits .f32 = 32 ∨ (Rect.block (s := S256x128) S256x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S50000x128.size a
  hwx1_4 : ∀ i : grid1.Coords, EltTy.bits .f32 = 32 ∨ (Rect.block (s := S50000x128) S5000x128.size (cc1_transform_4 i) (hinb1_4 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S256x128.size a ≤ S256x128.size a
  hwx2_0 : ∀ i : grid2.Coords, EltTy.bits .f32 = 32 ∨ (Rect.block (s := S256x128) S256x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x1.size a ≤ S128x1.size a
  hwx2_3 : ∀ i : grid2.Coords, EltTy.bits .f32 = 32 ∨ (Rect.block (s := S128x1) S128x1.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x1.size a ≤ S1x1.size a
  hwx2_4 : ∀ i : grid2.Coords, EltTy.bits .f32 = 32 ∨ (Rect.block (s := S1x1) S1x1.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S256x1.size a ≤ S256x1.size a
  hwx2_5 : ∀ i : grid2.Coords, EltTy.bits .f32 = 32 ∨ (Rect.block (s := S256x1) S256x1.size (cc2_transform_5 i) (hinb2_5 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def scatter_S256x128_S50000x1_S50000x128_1_0_0_1 : ScatterDims S256x128 S50000x1 S50000x128 where
  updateWindowDims := [1]
  insertedWindowDims := [0]
  scatterDimsToOperandDims := [0]
  indexVectorDim := 1
  wf := scatter_S256x128_S50000x1_S50000x128_1_0_0_1_wf
def scatter_S256_S50000x1_S50000_n_0_0_1 : ScatterDims S256 S50000x1 S50000 where
  updateWindowDims := []
  insertedWindowDims := [0]
  scatterDimsToOperandDims := [0]
  indexVectorDim := 1
  wf := scatter_S256_S50000x1_S50000_n_0_0_1_wf
def dot_S256x128_S128x128_S256x128_1_0_0_1_n_n : DotDims S256x128 S128x128 S256x128 where
  lhsContracting := [1]
  rhsContracting := [0]
  lhsNonContracting := [0]
  rhsNonContracting := [1]
  lhsBatch := []
  rhsBatch := []
  wf := dot_S256x128_S128x128_S256x128_1_0_0_1_n_n_wf
def dot_S256x128_S128x1_S256x1_1_0_0_1_n_n : DotDims S256x128 S128x1 S256x1 where
  lhsContracting := [1]
  rhsContracting := [0]
  lhsNonContracting := [0]
  rhsNonContracting := [1]
  lhsBatch := []
  rhsBatch := []
  wf := dot_S256x128_S128x1_S256x1_1_0_0_1_n_n_wf

abbrev win0_0 : Pipeline.Window sig grid0 :=
  Pipeline.Window.ofSpec (Memref.whole main_v17) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S256x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v18) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S5000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v30) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v19) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5) S256x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v31) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v32) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v44) S256x128.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_arg9) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v45) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg11) S128x1.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v46) S1x1.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v47) S256x1.size cc2_transform_5 reads2_5 true true 1 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩
abbrev S256x128 : Shape := ⟨2, ![256, 128]⟩
abbrev S50000x1 : Shape := ⟨2, ![50000, 1]⟩
abbrev S256 : Shape := ⟨1, ![256]⟩
abbrev S256x1 : Shape := ⟨2, ![256, 1]⟩
abbrev S1x1 : Shape := ⟨2, ![1, 1]⟩

abbrev nBuf : Space → Nat
  | .hbm => 88
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128x128, .f32⟩
  | .hbm, ⟨10, _⟩ => ⟨S128, .f32⟩
  | .hbm, ⟨11, _⟩ => ⟨S128x1, .f32⟩
  | .hbm, ⟨12, _⟩ => ⟨S1, .f32⟩
  | .hbm, ⟨13, _⟩ => ⟨S1x800000, .i32⟩
  | .hbm, ⟨14, _⟩ => ⟨S800000, .i32⟩
  | .hbm, ⟨15, _⟩ => ⟨S1x800000, .i32⟩
  | .hbm, ⟨16, _⟩ => ⟨S800000, .i32⟩
  | .hbm, ⟨17, _⟩ => ⟨S_, .i32⟩
  | .hbm, ⟨18, _⟩ => ⟨S800000, .i32⟩
  | .hbm, ⟨19, _⟩ => ⟨S800000, .i1⟩
  | .hbm, ⟨20, _⟩ => ⟨S_, .i32⟩
  | .hbm, ⟨21, _⟩ => ⟨S800000, .i32⟩
  | .hbm, ⟨22, _⟩ => ⟨S800000, .i32⟩
  | .hbm, ⟨23, _⟩ => ⟨S800000, .i32⟩
  | .hbm, ⟨24, _⟩ => ⟨S800000x1, .i32⟩
  | .hbm, ⟨25, _⟩ => ⟨S800000x128, .f32⟩
  | .hbm, ⟨26, _⟩ => ⟨S_, .f32⟩
  | .hbm, ⟨27, _⟩ => ⟨S50000x128, .f32⟩
  | .hbm, ⟨28, _⟩ => ⟨S800000x1, .i32⟩
  | .hbm, ⟨29, _⟩ => ⟨S50000x128, .f32⟩
  | .hbm, ⟨30, _⟩ => ⟨S50000x128, .f32⟩
  | .hbm, ⟨31, _⟩ => ⟨S1x128, .f32⟩
  | .hbm, ⟨32, _⟩ => ⟨S50000x128, .f32⟩
  | .hbm, ⟨33, _⟩ => ⟨S50000x128, .f32⟩
  | .hbm, ⟨34, _⟩ => ⟨S50000x128, .f32⟩
  | .hbm, ⟨35, _⟩ => ⟨S50000x128, .f32⟩
  | .hbm, ⟨36, _⟩ => ⟨S_, .f32⟩
  | .hbm, ⟨37, _⟩ => ⟨S50000x128, .f32⟩
  | .hbm, ⟨38, _⟩ => ⟨S50000x128, .f32⟩
  | .hbm, ⟨39, _⟩ => ⟨S_, .i32⟩
  | .hbm, ⟨40, _⟩ => ⟨S800000, .i32⟩
  | .hbm, ⟨41, _⟩ => ⟨S800000, .i1⟩
  | .hbm, ⟨42, _⟩ => ⟨S_, .i32⟩
  | .hbm, ⟨43, _⟩ => ⟨S800000, .i32⟩
  | .hbm, ⟨44, _⟩ => ⟨S800000, .i32⟩
  | .hbm, ⟨45, _⟩ => ⟨S800000, .i32⟩
  | .hbm, ⟨46, _⟩ => ⟨S800000x1, .i32⟩
  | .hbm, ⟨47, _⟩ => ⟨S800000x128, .f32⟩
  | .hbm, ⟨48, _⟩ => ⟨S_, .f32⟩
  | .hbm, ⟨49, _⟩ => ⟨S50000x128, .f32⟩
  | .hbm, ⟨50, _⟩ => ⟨S800000x1, .i32⟩
  | .hbm, ⟨51, _⟩ => ⟨S50000x128, .f32⟩
  | .hbm, ⟨52, _⟩ => ⟨S50000x128, .f32⟩
  | .hbm, ⟨53, _⟩ => ⟨S1x128, .f32⟩
  | .hbm, ⟨54, _⟩ => ⟨S50000x128, .f32⟩
  | .hbm, ⟨55, _⟩ => ⟨S50000x128, .f32⟩
  | .hbm, ⟨56, _⟩ => ⟨S50000x128, .f32⟩
  | .hbm, ⟨57, _⟩ => ⟨S50000x128, .f32⟩
  | .hbm, ⟨58, _⟩ => ⟨S_, .f32⟩
  | .hbm, ⟨59, _⟩ => ⟨S50000x128, .f32⟩
  | .hbm, ⟨60, _⟩ => ⟨S50000x128, .f32⟩
  | .hbm, ⟨61, _⟩ => ⟨S_, .f32⟩
  | .hbm, ⟨62, _⟩ => ⟨S256x128, .f32⟩
  | .hbm, ⟨63, _⟩ => ⟨S50000x1, .i32⟩
  | .hbm, ⟨64, _⟩ => ⟨S256x128, .f32⟩
  | .hbm, ⟨65, _⟩ => ⟨S_, .f32⟩
  | .hbm, ⟨66, _⟩ => ⟨S50000, .f32⟩
  | .hbm, ⟨67, _⟩ => ⟨S_, .f32⟩
  | .hbm, ⟨68, _⟩ => ⟨S256, .f32⟩
  | .hbm, ⟨69, _⟩ => ⟨S50000x1, .i32⟩
  | .hbm, ⟨70, _⟩ => ⟨S256, .f32⟩
  | .hbm, ⟨71, _⟩ => ⟨S_, .f32⟩
  | .hbm, ⟨72, _⟩ => ⟨S256, .f32⟩
  | .hbm, ⟨73, _⟩ => ⟨S256, .f32⟩
  | .hbm, ⟨74, _⟩ => ⟨S256x1, .f32⟩
  | .hbm, ⟨75, _⟩ => ⟨S256x128, .f32⟩
  | .hbm, ⟨76, _⟩ => ⟨S256x128, .f32⟩
  | .hbm, ⟨77, _⟩ => ⟨S256x128, .f32⟩
  | .hbm, ⟨78, _⟩ => ⟨S1x128, .f32⟩
  | .hbm, ⟨79, _⟩ => ⟨S256x128, .f32⟩
  | .hbm, ⟨80, _⟩ => ⟨S256x128, .f32⟩
  | .hbm, ⟨81, _⟩ => ⟨S_, .f32⟩
  | .hbm, ⟨82, _⟩ => ⟨S256x128, .f32⟩
  | .hbm, ⟨83, _⟩ => ⟨S256x128, .f32⟩
  | .hbm, ⟨84, _⟩ => ⟨S256x1, .f32⟩
  | .hbm, ⟨85, _⟩ => ⟨S1x1, .f32⟩
  | .hbm, ⟨86, _⟩ => ⟨S256x1, .f32⟩
  | .hbm, ⟨87, _⟩ => ⟨S256x1, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_call0_cst : Ref sig .tc := ⟨.hbm, 36, rfl⟩
abbrev main_call0_v0 : Ref sig .tc := ⟨.hbm, 37, rfl⟩
abbrev main_v20 : Ref sig .tc := ⟨.hbm, 38, rfl⟩
abbrev main_c_1 : Ref sig .tc := ⟨.hbm, 39, rfl⟩
abbrev main_v21 : Ref sig .tc := ⟨.hbm, 40, rfl⟩
abbrev main_v22 : Ref sig .tc := ⟨.hbm, 41, rfl⟩
abbrev main_c_2 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_cst_3 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_call1_cst : Ref sig .tc := ⟨.hbm, 58, rfl⟩
abbrev main_call1_v0 : Ref sig .tc := ⟨.hbm, 59, rfl⟩
abbrev main_v37 : Ref sig .tc := ⟨.hbm, 60, rfl⟩
abbrev main_cst_4 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_5 : Ref sig .tc := ⟨.hbm, 65, rfl⟩
abbrev main_v41 : Ref sig .tc := ⟨.hbm, 66, rfl⟩
abbrev main_cst_6 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_cst_7 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_call2_cst : Ref sig .tc := ⟨.hbm, 81, rfl⟩
abbrev main_call2_v0 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S256x128 : S_.BroadcastsInDim S256x128 (![] : Fin 0 → Fin S256x128.rank)
  bcast_S50000_S50000x1_0 : S50000.BroadcastsInDim S50000x1 (![0] : Fin 1 → Fin S50000x1.rank)
  bcast_S_S50000 : S_.BroadcastsInDim S50000 (![] : Fin 0 → Fin S50000.rank)
  bcast_S_S256 : S_.BroadcastsInDim S256 (![] : Fin 0 → Fin S256.rank)
  bcast_S256_S256x1_0 : S256.BroadcastsInDim S256x1 (![0] : Fin 1 → Fin S256x1.rank)
  bcast_S256x1_S256x128_0_1 : S256x1.BroadcastsInDim S256x128 (![0, 1] : Fin 2 → Fin S256x128.rank)
  bcast_S1x128_S256x128_0_1 : S1x128.BroadcastsInDim S256x128 (![0, 1] : Fin 2 → Fin S256x128.rank)
  bcast_S1_S1x1_1 : S1.BroadcastsInDim S1x1 (![1] : Fin 1 → Fin S1x1.rank)
  bcast_S1x1_S256x1_0_1 : S1x1.BroadcastsInDim S256x1 (![0, 1] : Fin 2 → Fin S256x1.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  scatter_S256x128_S50000x1_S50000x128_1_0_0_1_wf : ScatterDims.WF S256x128 S50000x1 S50000x128 [1] [0] [0] 1
  scatter_S256_S50000x1_S50000_n_0_0_1_wf : ScatterDims.WF S256 S50000x1 S50000 [] [0] [0] 1
  dot_S256x128_S128x128_S256x128_1_0_0_1_n_n_wf : DotDims.WF S256x128 S128x128 S256x128 [1] [0] [0] [1] [] []
  dot_S256x128_S128x1_S256x1_1_0_0_1_n_n_wf : DotDims.WF S256x128 S128x1 S256x1 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S256x128_S50000x1_S50000x128_1_0_0_1 : ScatterDims S256x128 S50000x1 S50000x128 where
  updateWindowDims := [1]
  insertedWindowDims := [0]
  scatterDimsToOperandDims := [0]
  indexVectorDim := 1
  wf := scatter_S256x128_S50000x1_S50000x128_1_0_0_1_wf
def scatter_S256_S50000x1_S50000_n_0_0_1 : ScatterDims S256 S50000x1 S50000 where
  updateWindowDims := []
  insertedWindowDims := [0]
  scatterDimsToOperandDims := [0]
  indexVectorDim := 1
  wf := scatter_S256_S50000x1_S50000_n_0_0_1_wf
def dot_S256x128_S128x128_S256x128_1_0_0_1_n_n : DotDims S256x128 S128x128 S256x128 where
  lhsContracting := [1]
  rhsContracting := [0]
  lhsNonContracting := [0]
  rhsNonContracting := [1]
  lhsBatch := []
  rhsBatch := []
  wf := dot_S256x128_S128x128_S256x128_1_0_0_1_n_n_wf
def dot_S256x128_S128x1_S256x1_1_0_0_1_n_n : DotDims S256x128 S128x1 S256x1 where
  lhsContracting := [1]
  rhsContracting := [0]
  lhsNonContracting := [0]
  rhsNonContracting := [1]
  lhsBatch := []
  rhsBatch := []
  wf := dot_S256x128_S128x1_S256x1_1_0_0_1_n_n_wf

class Facts : Prop extends Facts₀ where

variable [Facts]
-- ==== Proof.KernelRun.lean ====
/-
  The idealized kernel program's run with its result named.

  The program is three kernel launches among stretches of host operations. Its generated frame follows the buffer
  contents from the launch memory through every stretch and every launch, and ends with every buffer that outlives
  the program at the last boundary's contents. Read there at the result buffer instead of at an argument, the same
  run says that the program's result ends holding what the last boundary's contents hold for it; the arguments end
  as launched, as in the frame.
-/
import proofs.«144735_j15539191677055_2_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result buffer ends at the last
    boundary's contents for it, and every argument array ends as launched. -/
theorem run_result : θ_run defs (onTc (τ := τ) (main (F := F))) ⟨m, fun _ => 0, ρ⟩ (fun r => ∀ c : Dev nD,
      r.2.mem ((c.tc : Thread nD τ).loc main_v47) = W6 m ρ c (Proc.devRef .tc main_v47)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v47 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c),
       (h c _ (mem_uc main_arg12 (by decide))).trans (W6_main_arg12 m ρ c)⟩)

end Cert.KernelIdeal.RunValue

end
-- ==== Proof.LibPlainMatmul.lean ====
/-
  A plain matrix product read at an index, at the ideal values.

  For the dimension numbers of an ordinary product — an [A, K] matrix times a [K, B] matrix, contracting the left
  operand's columns with the right operand's rows, no batch axis — a `tpu.matmul` into the zero accumulator is, at
  (p, e), the sum over k of L(p, k) · R(k, e): a sum indexed by `Fin K`, with both operands read at indices written by
  coordinates. The contraction index of the library's general statement is re-indexed through its one coordinate, and
  the operand indices it names are computed axis by axis.
-/
import Idealize.ShloMosaic.PureOps.Ideal.Laws
import Idealize.ShloMosaic.Lib.ValueIdx

noncomputable section

namespace Idealize.ShloMosaic.ValueIdx

open Idealize.ShloMosaic

/-- The left operand's index at result index (p, e) and contraction coordinate k is (p, k). -/
theorem plain_lhsIdx (A K B : Nat) (p : Fin A) (e : Fin B) (k : Fin K) :
    (DotDims.plain A K B).lhsIdx (ix2 p e) ((contrEquiv1 (DotDims.plain A K B) K rfl rfl).symm k) = ix2 p k :=
  funext fun a => Fin.ext (by
    match a with
    | ⟨0, _⟩ => rfl
    | ⟨1, _⟩ =>
      exact ((DotDims.plain A K B).lhsIdx_val_of_single (cl := 1) rfl _ _).trans
        (contrEquiv1_symm_val (DotDims.plain A K B) K rfl rfl k))

/-- The right operand's index there is (k, e). -/
theorem plain_rhsIdx (A K B : Nat) (p : Fin A) (e : Fin B) (k : Fin K) :
    (DotDims.plain A K B).rhsIdx (ix2 p e) ((contrEquiv1 (DotDims.plain A K B) K rfl rfl).symm k) = ix2 k e :=
  funext fun a => Fin.ext (by
    match a with
    | ⟨0, _⟩ =>
      exact ((DotDims.plain A K B).rhsIdx_val_of_single (cr := 0) rfl _ _).trans
        (contrEquiv1_symm_val (DotDims.plain A K B) K rfl rfl k)
    | ⟨1, _⟩ => rfl)

/-- A plain [A, K] × [K, B] `tpu.matmul` into the zero accumulator, read at (p, e): Σ_k L(p, k) · R(k, e). -/
theorem matmul_plain_zero_apply (A K B : Nat) {φ₁ φ₂ : FTy} (prec : Option ContractPrecision)
    (lhs : FVec Ideal ⟨2, ![A, K]⟩ φ₁) (rhs : FVec Ideal ⟨2, ![K, B]⟩ φ₂) (p : Fin A) (e : Fin B) :
    FloatOps.matmul (DotDims.plain A K B) prec lhs rhs (constant ⟨2, ![A, B]⟩ .f32 0x00000000#32) (ix2 p e)
      = ∑ k : Fin K, lhs (ix2 p k) * rhs (ix2 k e) := by
  rw [Ideal.matmul_constant_zero_apply, ← Equiv.sum_comp (contrEquiv1 (DotDims.plain A K B) K rfl rfl).symm]
  refine Finset.sum_congr rfl fun k _ => ?_
  rw [plain_lhsIdx, plain_rhsIdx]

end Idealize.ShloMosaic.ValueIdx

end
-- ==== Proof.LibRowRead.lean ====
/-
  Rows of matrices, read through the operations a row-wise network is printed with, at the ideal values.

  A value of shape [A, n] is read one row at a time: `rowOf X p` is row `p` as a function of the column, and
  `mat W` is a weight matrix as a function of row and column. Each lemma says what one operation does to a row:
  a plain matrix product (a kernel's `tpu.matmul` into the zero accumulator, the host's `dot_general`) is the
  linear layer `j ↦ Σ_i h i · W i j` of the row; a maximum with the zero splat is the rectifier of the row; a
  change of float format and a shape cast to the same shape change nothing; a slice of columns takes those columns
  of the row; two matrices set side by side give the first's row followed by the second's.
-/
import Idealize.ShloMosaic.PureOps.Ideal.Laws
import Idealize.ShloMosaic.Lib.ValueIdx
import Idealize.ShloMosaic.Lib.Pipeline.Value
import proofs.«144735_j15539191677055_2_alg».proof.Proof.LibPlainMatmul

noncomputable section

namespace RowRead

open Idealize.ShloMosaic Idealize.ShloMosaic.ValueIdx Finset

/-- Row `p` of an [A, n] value, as a function of the column. -/
def rowOf {A n : ℕ} (X : (⟨2, ![A, n]⟩ : Shape).Idx → EReal) (p : Fin A) : Fin n → EReal := fun k => X (ix2 p k)

/-- A matrix as a function of row and column. -/
def mat {a b : ℕ} (W : (⟨2, ![a, b]⟩ : Shape).Idx → EReal) : Fin a → Fin b → EReal := fun i j => W (ix2 i j)

/-- Three matrices of one shape, by their place. -/
def mats3 {a b : ℕ} (u0 u1 u2 : (⟨2, ![a, b]⟩ : Shape).Idx → EReal) : Fin 3 → Fin a → Fin b → EReal :=
  fun n => mat (![u0, u1, u2] n)

/-- A kernel's plain [A, K] × [K, B] product into the zero accumulator: row `p` is the linear layer of the left
    operand's row `p`. -/
theorem rowOf_matmul {A K B : ℕ} {φ₁ φ₂ : FTy} (D : DotDims ⟨2, ![A, K]⟩ ⟨2, ![K, B]⟩ ⟨2, ![A, B]⟩) (hD : D = DotDims.plain A K B)
    (prec : Option ContractPrecision) (lhs : FVec Ideal ⟨2, ![A, K]⟩ φ₁) (rhs : FVec Ideal ⟨2, ![K, B]⟩ φ₂) (p : Fin A) :
    rowOf (FloatOps.matmul D prec lhs rhs (constant ⟨2, ![A, B]⟩ .f32 0x00000000#32)) p = fun j => ∑ i, rowOf lhs p i * mat rhs i j := by
  subst hD
  funext j
  exact matmul_plain_zero_apply A K B prec lhs rhs p j

/-- The host's plain [A, K] × [K, B] `dot_general`: the same. -/
theorem rowOf_dotGeneral {A K B : ℕ} {φ₁ φ₂ : FTy} (D : DotDims ⟨2, ![A, K]⟩ ⟨2, ![K, B]⟩ ⟨2, ![A, B]⟩) (hD : D = DotDims.plain A K B)
    (prec : Option ContractPrecision) (sched : HostSchedule) (lhs : FVec Ideal ⟨2, ![A, K]⟩ φ₁) (rhs : FVec Ideal ⟨2, ![K, B]⟩ φ₂) (p : Fin A) :
    rowOf (FloatOps.dotGeneral D prec sched lhs rhs) p = fun j => ∑ i, rowOf lhs p i * mat rhs i j := by
  subst hD
  funext j
  show FloatOps.dotGeneral (DotDims.plain A K B) prec sched lhs rhs (ix2 p j) = ∑ k : Fin K, lhs (ix2 p k) * rhs (ix2 k j)
  rw [Ideal.dotGeneral_apply, ← Equiv.sum_comp (contrEquiv1 (DotDims.plain A K B) K rfl rfl).symm]
  refine sum_congr rfl fun k _ => ?_
  rw [plain_lhsIdx, plain_rhsIdx]

/-- A maximum with a value that is zero everywhere is the rectifier of the row. -/
theorem rowOf_max_zero {A n : ℕ} (v z : (⟨2, ![A, n]⟩ : Shape).Idx → EReal) (hz : ∀ i, z i = 0) (p : Fin A) :
    rowOf (fun i => max (v i) (z i)) p = fun j => max (rowOf v p j) 0 := by
  funext j
  show max (v (ix2 p j)) (z (ix2 p j)) = max (v (ix2 p j)) 0
  rw [hz]

/-- A kernel's maximum with the splat of a scalar that is zero: the rectifier of the row. -/
theorem rowOf_max_splat {A n : ℕ} {φ : FTy} (v : FVec Ideal ⟨2, ![A, n]⟩ φ) (z : Ideal φ) (hz : z = (0 : EReal)) (p : Fin A) :
    rowOf (maximumf v (broadcast ⟨2, ![A, n]⟩ z)) p = fun j => max (rowOf v p j) 0 :=
  rowOf_max_zero v (broadcast ⟨2, ![A, n]⟩ z) (fun _ => hz) p

/-- The host's maximum with a scalar zero constant broadcast to the shape: the same. -/
theorem rowOf_max_host {A n : ℕ} (v : FVec Ideal ⟨2, ![A, n]⟩ .f32)
    (hb : (⟨0, ![]⟩ : Shape).BroadcastsInDim ⟨2, ![A, n]⟩ (![] : Fin 0 → Fin 2)) (p : Fin A) :
    rowOf (maximumf v (broadcastInDim ⟨2, ![A, n]⟩ ![] hb (constant (F := Ideal) ⟨0, ![]⟩ .f32 0x00000000#32))) p
      = fun j => max (rowOf v p j) 0 :=
  rowOf_max_zero v _ (fun i => by
    rw [broadcastInDim_apply ![] hb _ i ix0 (fun a => a.elim0)]
    exact Ideal.ofBits_zero_f32) p

/-- A change of float format changes nothing. -/
theorem rowOf_truncf {A n : ℕ} {φ ψ : FTy} (v : FVec Ideal ⟨2, ![A, n]⟩ φ) (h : ψ.bits < φ.bits) (p : Fin A) :
    rowOf (truncf ψ v h : FVec Ideal ⟨2, ![A, n]⟩ ψ) p = rowOf v p := rfl

/-- A slice of `n` columns from column `o` on takes those columns of the row. -/
theorem rowOf_slice {A N n : ℕ} (o : ℕ) (ho : o + n ≤ N) (X : (⟨2, ![A, N]⟩ : Shape).Idx → EReal)
    (h : (⟨2, ![A, N]⟩ : Shape).Slices ![0, o] ⟨2, ![A, n]⟩) (p : Fin A) :
    rowOf (extractStridedSlice ⟨2, ![A, n]⟩ ![0, o] X h) p = fun k => rowOf X p ⟨o + k.val, by have := k.isLt; omega⟩ := by
  funext k
  exact extractStridedSlice_apply ![0, o] X h (ix2 p k) (ix2 p ⟨o + k.val, by have := k.isLt; omega⟩) (fun a => by
    match a with
    | ⟨0, _⟩ => show p.val = 0 + p.val; omega
    | ⟨1, _⟩ => rfl)

/-- A slice of the first `n` columns. -/
theorem rowOf_slice_front {A N n : ℕ} (ho : n ≤ N) (X : (⟨2, ![A, N]⟩ : Shape).Idx → EReal)
    (h : (⟨2, ![A, N]⟩ : Shape).Slices ![0, 0] ⟨2, ![A, n]⟩) (p : Fin A) :
    rowOf (extractStridedSlice ⟨2, ![A, n]⟩ ![0, 0] X h) p = fun k => rowOf X p ⟨k.val, by have := k.isLt; omega⟩ := by
  rw [rowOf_slice 0 (by omega)]
  funext k
  exact congrArg (fun q => X (ix2 p q)) (Fin.ext (Nat.zero_add _))

/-- Two matrices set side by side: the first's row, then the second's. -/
theorem rowOf_beside {A n₁ n₂ N : ℕ} (x₁ : (⟨2, ![A, n₁]⟩ : Shape).Idx → EReal) (x₂ : (⟨2, ![A, n₂]⟩ : Shape).Idx → EReal)
    (h : Shape.Concatenates [(⟨2, ![A, n₁]⟩ : Shape), ⟨2, ![A, n₂]⟩] ⟨2, ![A, N]⟩ 1) (hN : n₁ + n₂ = N) (p : Fin A) :
    rowOf (concatenate ⟨2, ![A, N]⟩ 1 [⟨⟨2, ![A, n₁]⟩, x₁⟩, ⟨⟨2, ![A, n₂]⟩, x₂⟩] h) p
      = fun k => if hk : k.val < n₁ then rowOf x₁ p ⟨k.val, hk⟩ else rowOf x₂ p ⟨k.val - n₁, by have := k.isLt; omega⟩ := by
  funext k
  by_cases hk : k.val < n₁
  · rw [dif_pos hk]
    exact concatenate_pair_apply_left 1 x₁ x₂ h (ix2 p k) rfl (ix2 p ⟨k.val, hk⟩) (fun b => by
      match b with
      | ⟨0, _⟩ => rfl
      | ⟨1, _⟩ => rfl)
  · rw [dif_neg hk]
    exact concatenate_pair_apply_right 1 x₁ x₂ h (ix2 p k) rfl rfl (ix2 p ⟨k.val - n₁, by have := k.isLt; omega⟩) (fun b hb => by
      match b with
      | ⟨0, _⟩ => rfl
      | ⟨1, _⟩ => exact absurd rfl hb) (by show k.val - n₁ + n₁ = k.val; omega)

end RowRead

end
-- ==== Proof.LibRowBroadcast.lean ====
/-
  A ROW `[1, b]` spread over `a` rows: the broadcast to `[a, b]` reads, at `(p, c)`, the row's entry of column `c`
  — every row of the result is the one row of the operand. The unit coordinate `u : Fin 1` is whatever the caller
  writes: there is only one.
-/
import Idealize.ShloMosaic.Lib.ValueLayout

namespace Cert.LibRowBroadcast

open Idealize.ShloMosaic Idealize.ShloMosaic.ValueIdx

variable {α : Type}

/-- A row `[1, b]` broadcast to `[a, b]` reads, at `(p, c)`, the row's entry of column `c`. -/
theorem broadcastTo_1b_ab_apply {a b : ℕ} (v : (⟨2, ![1, b]⟩ : Shape).Idx → α) (h : (⟨2, ![1, b]⟩ : Shape).Broadcasts ⟨2, ![a, b]⟩)
    (p : Fin a) (c : Fin b) (u : Fin 1) : broadcastTo ⟨2, ![a, b]⟩ v h (ix2 p c) = v (ix2 u c) := by
  refine broadcastTo_apply v h (ix2 p c) (ix2 u c) fun ax => ?_
  match ax with
  | ⟨0, _⟩ =>
    show u.val = if (1 : ℕ) = 1 then 0 else p.val
    rw [if_pos rfl]; omega
  | ⟨1, _⟩ =>
    show c.val = if b = 1 then 0 else c.val
    split
    · have := c.isLt; omega
    · rfl

end Cert.LibRowBroadcast
-- ==== Proof.LibRowLayers.lean ====
/-
  Rows through a layer that adds two linear maps, at the ideal values.

  A graph convolution's dense part is, at one node, the rectifier of (a · Wr + b) + x · Wo: the node's aggregated
  row `a` through one weight matrix, plus a bias, plus the node's own row `x` through another. A kernel may form the
  two products as ONE: the two rows set end to end, times the two matrices stacked one above the other. The sum
  over the long axis splits into the sums over its two stretches, and addition of extended reals is commutative and
  associative with no exception, so the two forms are equal on all extended reals — no finiteness is asked.

  Also here: the stacked matrix read by row and column, a sum of two values read by rows, and a bias vector spread
  over the rows of a matrix, in the two spellings a host program and a kernel print it with.
-/
import Idealize.ShloMosaic.PureOps.Ideal.Laws
import Idealize.ShloMosaic.Lib.ValueIdx
import Idealize.ShloMosaic.Lib.Pipeline.Value
import Idealize.ShloMosaic.Lib.ValueLayout
import proofs.«144735_j15539191677055_2_alg».proof.Proof.LibRowRead
import proofs.«144735_j15539191677055_2_alg».proof.Proof.LibRowBroadcast

noncomputable section

namespace RowLayers

open Idealize.ShloMosaic Idealize.ShloMosaic.ValueIdx Finset RowRead

/-- Two rows set end to end. -/
def besideRow {n₁ n₂ N : ℕ} (hN : n₁ + n₂ = N) (r₁ : Fin n₁ → EReal) (r₂ : Fin n₂ → EReal) : Fin N → EReal :=
  fun k => if hk : k.val < n₁ then r₁ ⟨k.val, hk⟩ else r₂ ⟨k.val - n₁, by have := k.isLt; omega⟩

/-- Two matrices of one width stacked, the first above the second. -/
def stackMat {a₁ a₂ N b : ℕ} (hN : a₁ + a₂ = N) (W₁ : Fin a₁ → Fin b → EReal) (W₂ : Fin a₂ → Fin b → EReal) :
    Fin N → Fin b → EReal :=
  fun k j => if hk : k.val < a₁ then W₁ ⟨k.val, hk⟩ j else W₂ ⟨k.val - a₁, by have := k.isLt; omega⟩ j

/-- The product of the joined row with the stacked matrix is the sum of the two products. -/
theorem sum_beside_stack {n₁ n₂ N b : ℕ} (hN : n₁ + n₂ = N) (r₁ : Fin n₁ → EReal) (r₂ : Fin n₂ → EReal)
    (W₁ : Fin n₁ → Fin b → EReal) (W₂ : Fin n₂ → Fin b → EReal) (j : Fin b) :
    ∑ k : Fin N, besideRow hN r₁ r₂ k * stackMat hN W₁ W₂ k j = (∑ k, r₁ k * W₁ k j) + ∑ k, r₂ k * W₂ k j := by
  subst hN
  rw [Fin.sum_univ_add]
  congr 1
  · refine sum_congr rfl fun k _ => ?_
    have hk : (Fin.castAdd n₂ k).val < n₁ := k.isLt
    simp only [besideRow, stackMat, dif_pos hk]
    rfl
  · refine sum_congr rfl fun k _ => ?_
    have hk : ¬ (Fin.natAdd n₁ k).val < n₁ := by simp
    have e : (⟨(Fin.natAdd n₁ k).val - n₁, by have := k.isLt; simp⟩ : Fin n₂) = k := Fin.ext (by simp)
    simp only [besideRow, stackMat, dif_neg hk]
    rw [e]

/-- A linear layer with bias and rectifier at one row: `e ↦ max (Σ_k r k · W k e + b e) 0`. -/
def reluLin {n d : ℕ} (r : Fin n → EReal) (W : Fin n → Fin d → EReal) (b : Fin d → EReal) : Fin d → EReal :=
  fun e => max ((∑ k, r k * W k e) + b e) 0

/-- The dense part of a graph convolution at one node: the aggregated row through `Wr`, plus the bias, plus the
    node's own row through `Wo`, rectified. -/
def convRow {n d : ℕ} (a x : Fin n → EReal) (Wr Wo : Fin n → Fin d → EReal) (b : Fin d → EReal) : Fin d → EReal :=
  fun e => max (((∑ k, a k * Wr k e) + b e) + ∑ k, x k * Wo k e) 0

/-- The same with ONE product, of the two rows set end to end with the two matrices stacked. -/
def convRowFused {n₁ n₂ N d : ℕ} (hN : n₁ + n₂ = N) (a : Fin n₁ → EReal) (x : Fin n₂ → EReal)
    (Wr : Fin n₁ → Fin d → EReal) (Wo : Fin n₂ → Fin d → EReal) (b : Fin d → EReal) : Fin d → EReal :=
  reluLin (besideRow hN a x) (stackMat hN Wr Wo) b

/-- The fused form is the plain one: the long sum splits, and the bias moves past the second product. -/
theorem convRowFused_eq {n N d : ℕ} (hN : n + n = N) (a x : Fin n → EReal) (Wr Wo : Fin n → Fin d → EReal)
    (b : Fin d → EReal) : convRowFused hN a x Wr Wo b = convRow a x Wr Wo b := by
  funext e
  unfold convRowFused convRow reluLin
  rw [sum_beside_stack, add_right_comm]

/-- A linear layer with bias and rectifier at one row, then a second linear layer with bias. -/
def headRow {n d o : ℕ} (h : Fin n → EReal) (W₁ : Fin n → Fin d → EReal) (b₁ : Fin d → EReal)
    (W₂ : Fin d → Fin o → EReal) (b₂ : Fin o → EReal) : Fin o → EReal :=
  fun j => (∑ i, reluLin h W₁ b₁ i * W₂ i j) + b₂ j

/-- Two matrices stacked along the rows, read by row and column. -/
theorem mat_stack {a₁ a₂ N b : ℕ} (x₁ : (⟨2, ![a₁, b]⟩ : Shape).Idx → EReal) (x₂ : (⟨2, ![a₂, b]⟩ : Shape).Idx → EReal)
    (h : Shape.Concatenates [(⟨2, ![a₁, b]⟩ : Shape), ⟨2, ![a₂, b]⟩] ⟨2, ![N, b]⟩ 0) (hN : a₁ + a₂ = N) :
    mat (concatenate ⟨2, ![N, b]⟩ 0 [⟨⟨2, ![a₁, b]⟩, x₁⟩, ⟨⟨2, ![a₂, b]⟩, x₂⟩] h) = stackMat hN (mat x₁) (mat x₂) := by
  funext k j
  unfold stackMat
  by_cases hk : k.val < a₁
  · rw [dif_pos hk]
    exact concatenate_pair_apply_left 0 x₁ x₂ h (ix2 k j) rfl (ix2 ⟨k.val, hk⟩ j) (fun c => by
      match c with
      | ⟨0, _⟩ => rfl
      | ⟨1, _⟩ => rfl)
  · rw [dif_neg hk]
    exact concatenate_pair_apply_right 0 x₁ x₂ h (ix2 k j) rfl rfl (ix2 ⟨k.val - a₁, by have := k.isLt; omega⟩ j) (fun c hc => by
      match c with
      | ⟨0, _⟩ => exact absurd rfl hc
      | ⟨1, _⟩ => rfl) (by show k.val - a₁ + a₁ = k.val; omega)

/-- A sum of two values, by rows. -/
theorem rowOf_addf {A n : ℕ} {φ : FTy} (u v : FVec Ideal ⟨2, ![A, n]⟩ φ) (p : Fin A) :
    rowOf (addf u v) p = fun j => rowOf u p j + rowOf v p j := rfl

/-- A kernel's bias row [1, n] spread over [A, n]: every row is the bias. -/
theorem rowOf_broadcastTo_row {A n : ℕ} (v : (⟨2, ![1, n]⟩ : Shape).Idx → EReal)
    (h : (⟨2, ![1, n]⟩ : Shape).Broadcasts ⟨2, ![A, n]⟩) (p : Fin A) :
    rowOf (broadcastTo ⟨2, ![A, n]⟩ v h) p = fun j => v (ix2 0 j) := by
  funext j
  exact Cert.LibRowBroadcast.broadcastTo_1b_ab_apply v h p j 0

/-- A host's bias vector [n] made a row [1, n] and spread over [A, n]: every row is the bias. -/
theorem rowOf_broadcastInDim_vec {A n : ℕ} (v : (⟨1, ![n]⟩ : Shape).Idx → EReal)
    (h₁ : (⟨1, ![n]⟩ : Shape).BroadcastsInDim ⟨2, ![1, n]⟩ ![1])
    (h₂ : (⟨2, ![1, n]⟩ : Shape).BroadcastsInDim ⟨2, ![A, n]⟩ ![0, 1]) (p : Fin A) :
    rowOf (broadcastInDim ⟨2, ![A, n]⟩ ![0, 1] h₂ (broadcastInDim ⟨2, ![1, n]⟩ ![1] h₁ v)) p = fun j => v (ix1 j) := by
  funext j
  show broadcastInDim ⟨2, ![A, n]⟩ ![0, 1] h₂ (broadcastInDim ⟨2, ![1, n]⟩ ![1] h₁ v) (ix2 p j) = v (ix1 j)
  rw [broadcastInDim_apply ![0, 1] h₂ _ (ix2 p j) (ix2 (0 : Fin 1) j) (fun a => by
    match a with
    | ⟨0, _⟩ => show (0 : ℕ) = if (1 : ℕ) = 1 then 0 else p.val; rw [if_pos rfl]
    | ⟨1, _⟩ =>
      show j.val = if n = 1 then 0 else j.val
      split
      · have := j.isLt; omega
      · rfl)]
  exact broadcastInDim_apply ![1] h₁ v (ix2 (0 : Fin 1) j) (ix1 j) (fun a => by
    match a with
    | ⟨0, _⟩ =>
      show j.val = if n = 1 then 0 else j.val
      split
      · have := j.isLt; omega
      · rfl)

/-- A vector [n] recast as a row [1, n] reads the vector at the column. -/
theorem shapeCast_vec_row_apply {n : ℕ} (v : (⟨1, ![n]⟩ : Shape).Idx → EReal)
    (h : (⟨1, ![n]⟩ : Shape).ShapeCasts ⟨2, ![1, n]⟩) (j : Fin n) :
    shapeCast ⟨2, ![1, n]⟩ v h (ix2 0 j) = v (ix1 j) := by
  refine shapeCast_apply v h (ix2 (0 : Fin 1) j) (ix1 j) ?_
  rw [Shape.rowMajor_val_one, Shape.rowMajor_val_two]
  show j.val = 0 * n + j.val
  omega

end RowLayers

end
-- ==== Proof.KernelLayers.lean ====
/-
  What each kernel launch of the idealized program leaves in its output array, as one function of the arrays the
  launch finds.

  The two graph-convolution launches walk the 50000 nodes in ten blocks of 5000 rows; at each block the body sets the
  aggregated rows and the nodes' own rows side by side, multiplies by the stacked weights [256, 128], adds the bias
  row and rectifies. Row p of the output therefore depends only on row p of the two inputs: the output array is
  `convArr` of the four input arrays, and block t of it is exactly what grid point t writes back. The blocks tile
  the array (row r lies in block r / 5000), so after the launch the whole array holds `convArr`.

  The head launch has one grid point whose blocks are the whole arrays: a linear layer with bias and rectifier, then a
  second linear layer with bias, row by row.
-/
import proofs.«144735_j15539191677055_2_alg».proof.Proof.Gen.KernelIdeal.Frame
import proofs.«144735_j15539191677055_2_alg».proof.Proof.LibRowLayers

set_option maxRecDepth 16384

noncomputable section

namespace Cert.KernelIdeal.Layers

open Idealize.ShloMosaic Idealize.ShloMosaic.TcCoe Idealize.ShloMosaic.ValueIdx Idealize.SL.Sem
open Idealize.ShloMosaic.Pipeline (Dat Cfg Window)
open Cert.KernelIdeal Cert.KernelIdeal.Gen RowRead RowLayers

/-! ## The bodies' arithmetic, row by row -/

theorem dot0_plain : dot_S5000x256_S256x128_S5000x128_1_0_0_1_n_n = DotDims.plain 5000 256 128 := rfl

/-- Row q of the first convolution body's stored value: the joined rows through the stacked weights, plus the bias
    row, rectified. -/
theorem pay0_row (x0 x1 : Vec Ideal S5000x128 .f32) (x2 : Vec Ideal S256x128 .f32) (x3 : Vec Ideal S1x128 .f32) (q : Fin 5000) :
    rowOf (k0_pay1 (F := Ideal) x0 x1 x2 x3) q
      = reluLin (besideRow (N := 256) rfl (rowOf x0 q) (rowOf x1 q)) (mat x2) (fun e => x3 (ix2 0 e)) := by
  unfold k0_pay1
  dsimp only
  simp only [shapeCast_self]
  refine (rowOf_max_zero _ _ (fun _ => Ideal.ofBits_zero_f32) q).trans ?_
  funext e
  unfold reluLin
  refine congrArg (fun z => max z (0 : EReal)) ?_
  refine congrArg₂ (· + ·) ?_ (congrFun (rowOf_broadcastTo_row _ _ q) e)
  refine (congrFun (rowOf_matmul _ dot0_plain none _ _ q) e).trans ?_
  refine Finset.sum_congr rfl fun k _ => ?_
  refine congrArg (· * mat x2 k e) ((congrFun (rowOf_beside (n₁ := 128) (n₂ := 128) (N := 256) _ _ _ rfl q) k).trans ?_)
  show besideRow (N := 256) rfl (rowOf (shapeCast S5000x128 x0 shapeCasts_S5000x128_S5000x128) q) (rowOf x1 q) k = _
  rw [shapeCast_self]

/-! ## The first convolution launch -/

/-- Node features through the dense part of a graph convolution, as the kernel forms it: row p of the result from
    row p of the aggregated features `a` and of the features `x`, the stacked weights `W` and the bias row `b`. -/
def convArr (a x : S50000x128.Idx → EReal) (W : S256x128.Idx → EReal) (b : S1x128.Idx → EReal) : S50000x128.Idx → EReal :=
  fun i => reluLin (besideRow (N := 256) rfl (rowOf a (i 0)) (rowOf x (i 0))) (mat W) (fun e => b (ix2 0 e)) (i 1)

/-- The body's value at a block whose rows are rows T·5000 … T·5000 + 4999 of the input arrays is that stretch of
    rows of `convArr`. -/
theorem pay0_block (a x : S50000x128.Idx → EReal) (W : S256x128.Idx → EReal) (b : S1x128.Idx → EReal)
    (bA bX : Vec Ideal S5000x128 .f32) (bW : Vec Ideal S256x128 .f32) (bB : Vec Ideal S1x128 .f32) (T : ℕ) (hT : T < 10)
    (hA : ∀ (q : Fin 5000) (k : Fin 128), bA (ix2 q k) = a (ix2 ⟨T * 5000 + q.val, by have := q.isLt; omega⟩ k))
    (hX : ∀ (q : Fin 5000) (k : Fin 128), bX (ix2 q k) = x (ix2 ⟨T * 5000 + q.val, by have := q.isLt; omega⟩ k))
    (hW : ∀ (k : Fin 256) (e : Fin 128), bW (ix2 k e) = W (ix2 k e)) (hB : ∀ e : Fin 128, bB (ix2 0 e) = b (ix2 0 e))
    (j : S5000x128.Idx) (i : S50000x128.Idx) (hi0 : (i 0).val = T * 5000 + (j 0).val) (hi1 : (i 1).val = (j 1).val) :
    k0_pay1 (F := Ideal) bA bX bW bB j = convArr a x W b i := by
  obtain ⟨q, e, rfl⟩ : ∃ (q : Fin 5000) (e : Fin 128), j = ix2 q e := ⟨j 0, j 1, eq_ix2 j⟩
  have hb : T * 5000 + q.val < 50000 := by have := q.isLt; omega
  obtain ⟨p, e', rfl⟩ : ∃ (p : Fin 50000) (e' : Fin 128), i = ix2 p e' := ⟨i 0, i 1, eq_ix2 i⟩
  obtain rfl : p = ⟨T * 5000 + q.val, hb⟩ := Fin.ext hi0
  obtain rfl : e' = e := Fin.ext hi1
  refine (congrFun (pay0_row bA bX bW bB q) e').trans ?_
  show reluLin _ _ _ e' = reluLin _ _ _ e'
  have h1 : rowOf bA q = rowOf a ⟨T * 5000 + q.val, hb⟩ := funext fun k => hA q k
  have h2 : rowOf bX q = rowOf x ⟨T * 5000 + q.val, hb⟩ := funext fun k => hX q k
  have h3 : mat bW = mat W := funext fun k => funext fun e => hW k e
  have h4 : (fun e => bB (ix2 0 e)) = fun e => b (ix2 0 e) := funext hB
  rw [h1, h2, h3, h4]

section Regions

variable (V : (c : Dev nD) → (b : Ref sig .tc) → Buf (Elt Ideal) ((c : Thread nD τ).loc b))

theorem hz : (![0, 0] : Fin 2 → Nat) = fun _ => 0 := funext fun a => by fin_cases a <;> rfl

/-- The printed index maps of the first launch, decided over the grid: point t takes block (t, 0) of the two feature
    arrays and of the output, and the whole of the weights and of the bias row. -/
theorem idx_facts0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- What point t of the first launch writes back is block t of `convArr` of the arrays the launch finds. -/
theorem flushed0 (c : Dev nD) (t : Fin cfg0.N) :
    (dat0 V c).flushed 4 t = ((cfg0.win 4).blk t).view.read (Elt Ideal)
      (convArr (V c main_v17) (V c main_arg0) (V c main_v4) (V c main_v18)) := by
  show (cfg0.win 4).cut (grid0.coords t) ((dat0 V c).after 4 t) = _
  rw [after0_4]
  unfold out0_4
  rw [View.canon_unit_zero hz]
  simp only [View.ld_unit_zero (S := S5000x128) hz, View.ld_unit_zero (S := S256x128) hz, View.ld_unit_zero (S := S1x128) hz]
  obtain ⟨e0, e1, e2, e3, e4, e5, e6, e7, e8, e9⟩ := idx_facts0 t
  have ht : t.val < 10 := lt_of_lt_of_eq t.isLt N_0
  funext j
  refine pay0_block (V c main_v17) (V c main_arg0) (V c main_v4) (V c main_v18)
    (iblk0 V c 0 t) (iblk0 V c 1 t) (iblk0 V c 2 t) (iblk0 V c 3 t) t.val ht ?_ ?_ ?_ ?_ j (((cfg0.win 4).blk t).view.emb j) ?_ ?_
  · intro q k
    show V c main_v17 (((cfg0.win 0).blk t).view.emb (ix2 q k)) = V c main_v17 _
    refine congrArg (V c main_v17) (funext fun a => Fin.ext ?_)
    match a with
    | ⟨0, _⟩ => show win0_0.index t (0 : Fin 2) * 5000 + 1 * q.val = t.val * 5000 + q.val; omega
    | ⟨1, _⟩ => show win0_0.index t (1 : Fin 2) * 128 + 1 * k.val = k.val; omega
  · intro q k
    show V c main_arg0 (((cfg0.win 1).blk t).view.emb (ix2 q k)) = V c main_arg0 _
    refine congrArg (V c main_arg0) (funext fun a => Fin.ext ?_)
    match a with
    | ⟨0, _⟩ => show win0_1.index t (0 : Fin 2) * 5000 + 1 * q.val = t.val * 5000 + q.val; omega
    | ⟨1, _⟩ => show win0_1.index t (1 : Fin 2) * 128 + 1 * k.val = k.val; omega
  · intro k e
    show V c main_v4 (((cfg0.win 2).blk t).view.emb (ix2 k e)) = V c main_v4 _
    refine congrArg (V c main_v4) (funext fun a => Fin.ext ?_)
    match a with
    | ⟨0, _⟩ => show win0_2.index t (0 : Fin 2) * 256 + 1 * k.val = k.val; omega
    | ⟨1, _⟩ => show win0_2.index t (1 : Fin 2) * 128 + 1 * e.val = e.val; omega
  · intro e
    show V c main_v18 (((cfg0.win 3).blk t).view.emb (ix2 0 e)) = V c main_v18 _
    refine congrArg (V c main_v18) (funext fun a => Fin.ext ?_)
    match a with
    | ⟨0, _⟩ => show win0_3.index t (0 : Fin 2) * 1 + 1 * 0 = 0; omega
    | ⟨1, _⟩ => show win0_3.index t (1 : Fin 2) * 128 + 1 * e.val = e.val; omega
  · show win0_4.index t (0 : Fin 2) * 5000 + 1 * (j 0).val = t.val * 5000 + (j 0).val; omega
  · show win0_4.index t (1 : Fin 2) * 128 + 1 * (j 1).val = (j 1).val; omega

/-- An index of the output array is in point t's block iff each coordinate is in the block's range on its axis. -/
theorem mem_blk0 (t : Fin cfg0.N) (i : S50000x128.Idx) :
    i ∈ ((cfg0.win 4).blk t).view.set ↔ ∀ a : Fin 2, win0_4.index t a * S5000x128.size a ≤ (i a).val ∧ (i a).val < win0_4.index t a * S5000x128.size a + S5000x128.size a := by
  show i ∈ ((View.whole main_v19).slice (win0_4.rect t)).set ↔ _
  rw [View.set_slice_whole, Rect.mem_set_unit]
  exact Iff.rfl

/-- Every row lies in some point's block: row r in block r / 5000. -/
theorem cover0 (i : S50000x128.Idx) : ∃ t : Fin cfg0.N, (cfg0.win 4).flush t = true ∧ i ∈ ((cfg0.win 4).blk t).view.set := by
  have hN : cfg0.N = 10 := N_0
  have hi0 : (i 0).val < 50000 := (i 0).isLt
  have hi1 : (i 1).val < 128 := (i 1).isLt
  obtain ⟨t, ht⟩ : ∃ t : Fin cfg0.N, t.val = (i 0).val / 5000 := ⟨⟨(i 0).val / 5000, by omega⟩, rfl⟩
  refine ⟨t, flush0_4 t, ?_⟩
  rw [mem_blk0]
  obtain ⟨-, -, -, -, -, -, -, -, e8, e9⟩ := idx_facts0 t
  intro a
  match a with
  | ⟨0, _⟩ => show win0_4.index t (0 : Fin 2) * 5000 ≤ (i 0).val ∧ (i 0).val < win0_4.index t (0 : Fin 2) * 5000 + 5000; omega
  | ⟨1, _⟩ => show win0_4.index t (1 : Fin 2) * 128 ≤ (i 1).val ∧ (i 1).val < win0_4.index t (1 : Fin 2) * 128 + 128; omega

/-- After the launch its output array holds `convArr` of the arrays the launch finds. -/
theorem final0 (c : Dev nD) :
    (dat0 V c).arrAt 4 cfg0.N = convArr (V c main_v17) (V c main_arg0) (V c main_v4) (V c main_v18) :=
  (dat0 V c).arrAt_eq_of_cover 4 _ (fun t _ => flushed0 V c t) (cover0)

end Regions

/-! ## The second convolution launch -/

theorem dot1_plain : dot_S5000x256_S256x128_S5000x128_1_0_0_1_n_n = DotDims.plain 5000 256 128 := rfl

/-- Row q of the second convolution body's stored value. -/
theorem pay1_row (x0 : Vec Ideal S5000x128 .f32) (x1 : Vec Ideal S5000x128 .bf16) (x2 : Vec Ideal S256x128 .f32) (x3 : Vec Ideal S1x128 .f32) (q : Fin 5000) :
    rowOf (k1_pay1 (F := Ideal) x0 x1 x2 x3) q
      = reluLin (besideRow (N := 256) rfl (rowOf x0 q) (rowOf x1 q)) (mat x2) (fun e => x3 (ix2 0 e)) := by
  unfold k1_pay1
  dsimp only
  simp only [shapeCast_self]
  refine (rowOf_max_zero _ _ (fun _ => Ideal.ofBits_zero_f32) q).trans ?_
  funext e
  unfold reluLin
  refine congrArg (fun z => max z (0 : EReal)) ?_
  refine congrArg₂ (· + ·) ?_ (congrFun (rowOf_broadcastTo_row _ _ q) e)
  refine (congrFun (rowOf_matmul _ dot1_plain none _ _ q) e).trans ?_
  refine Finset.sum_congr rfl fun k _ => ?_
  refine congrArg (· * mat x2 k e) ((congrFun (rowOf_beside (n₁ := 128) (n₂ := 128) (N := 256) _ _ _ rfl q) k).trans ?_)
  show besideRow (N := 256) rfl (rowOf (shapeCast S5000x128 x0 shapeCasts_S5000x128_S5000x128) q)
    (rowOf (shapeCast S5000x128 x1 shapeCasts_S5000x128_S5000x128) q) k = _
  rw [shapeCast_self, shapeCast_self]

theorem pay1_block (a x : S50000x128.Idx → EReal) (W : S256x128.Idx → EReal) (b : S1x128.Idx → EReal)
    (bA : Vec Ideal S5000x128 .f32) (bX : Vec Ideal S5000x128 .bf16) (bW : Vec Ideal S256x128 .f32) (bB : Vec Ideal S1x128 .f32) (T : ℕ) (hT : T < 10)
    (hA : ∀ (q : Fin 5000) (k : Fin 128), bA (ix2 q k) = a (ix2 ⟨T * 5000 + q.val, by have := q.isLt; omega⟩ k))
    (hX : ∀ (q : Fin 5000) (k : Fin 128), bX (ix2 q k) = x (ix2 ⟨T * 5000 + q.val, by have := q.isLt; omega⟩ k))
    (hW : ∀ (k : Fin 256) (e : Fin 128), bW (ix2 k e) = W (ix2 k e)) (hB : ∀ e : Fin 128, bB (ix2 0 e) = b (ix2 0 e))
    (j : S5000x128.Idx) (i : S50000x128.Idx) (hi0 : (i 0).val = T * 5000 + (j 0).val) (hi1 : (i 1).val = (j 1).val) :
    k1_pay1 (F := Ideal) bA bX bW bB j = convArr a x W b i := by
  obtain ⟨q, e, rfl⟩ : ∃ (q : Fin 5000) (e : Fin 128), j = ix2 q e := ⟨j 0, j 1, eq_ix2 j⟩
  have hb : T * 5000 + q.val < 50000 := by have := q.isLt; omega
  obtain ⟨p, e', rfl⟩ : ∃ (p : Fin 50000) (e' : Fin 128), i = ix2 p e' := ⟨i 0, i 1, eq_ix2 i⟩
  obtain rfl : p = ⟨T * 5000 + q.val, hb⟩ := Fin.ext hi0
  obtain rfl : e' = e := Fin.ext hi1
  refine (congrFun (pay1_row bA bX bW bB q) e').trans ?_
  show reluLin _ _ _ e' = reluLin _ _ _ e'
  have h1 : rowOf bA q = rowOf a ⟨T * 5000 + q.val, hb⟩ := funext fun k => hA q k
  have h2 : rowOf bX q = rowOf x ⟨T * 5000 + q.val, hb⟩ := funext fun k => hX q k
  have h3 : mat bW = mat W := funext fun k => funext fun e => hW k e
  have h4 : (fun e => bB (ix2 0 e)) = fun e => b (ix2 0 e) := funext hB
  rw [h1, h2, h3, h4]

section Regions

variable (V : (c : Dev nD) → (b : Ref sig .tc) → Buf (Elt Ideal) ((c : Thread nD τ).loc b))

theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- What point t of the second launch writes back is block t of `convArr` of the arrays the launch finds. -/
theorem flushed1 (c : Dev nD) (t : Fin cfg1.N) :
    (dat1 V c).flushed 4 t = ((cfg1.win 4).blk t).view.read (Elt Ideal)
      (convArr (V c main_v30) (V c main_v19) (V c main_v5) (V c main_v31)) := by
  show (cfg1.win 4).cut (grid1.coords t) ((dat1 V c).after 4 t) = _
  rw [after1_4]
  unfold out1_4
  rw [View.canon_unit_zero hz]
  simp only [View.ld_unit_zero (S := S5000x128) hz, View.ld_unit_zero (S := S256x128) hz, View.ld_unit_zero (S := S1x128) hz]
  obtain ⟨e0, e1, e2, e3, e4, e5, e6, e7, e8, e9⟩ := idx_facts1 t
  have ht : t.val < 10 := lt_of_lt_of_eq t.isLt N_1
  funext j
  refine pay1_block (V c main_v30) (V c main_v19) (V c main_v5) (V c main_v31)
    (iblk1 V c 0 t) (iblk1 V c 1 t) (iblk1 V c 2 t) (iblk1 V c 3 t) t.val ht ?_ ?_ ?_ ?_ j (((cfg1.win 4).blk t).view.emb j) ?_ ?_
  · intro q k
    show V c main_v30 (((cfg1.win 0).blk t).view.emb (ix2 q k)) = V c main_v30 _
    refine congrArg (V c main_v30) (funext fun a => Fin.ext ?_)
    match a with
    | ⟨0, _⟩ => show win1_0.index t (0 : Fin 2) * 5000 + 1 * q.val = t.val * 5000 + q.val; omega
    | ⟨1, _⟩ => show win1_0.index t (1 : Fin 2) * 128 + 1 * k.val = k.val; omega
  · intro q k
    show V c main_v19 (((cfg1.win 1).blk t).view.emb (ix2 q k)) = V c main_v19 _
    refine congrArg (V c main_v19) (funext fun a => Fin.ext ?_)
    match a with
    | ⟨0, _⟩ => show win1_1.index t (0 : Fin 2) * 5000 + 1 * q.val = t.val * 5000 + q.val; omega
    | ⟨1, _⟩ => show win1_1.index t (1 : Fin 2) * 128 + 1 * k.val = k.val; omega
  · intro k e
    show V c main_v5 (((cfg1.win 2).blk t).view.emb (ix2 k e)) = V c main_v5 _
    refine congrArg (V c main_v5) (funext fun a => Fin.ext ?_)
    match a with
    | ⟨0, _⟩ => show win1_2.index t (0 : Fin 2) * 256 + 1 * k.val = k.val; omega
    | ⟨1, _⟩ => show win1_2.index t (1 : Fin 2) * 128 + 1 * e.val = e.val; omega
  · intro e
    show V c main_v31 (((cfg1.win 3).blk t).view.emb (ix2 0 e)) = V c main_v31 _
    refine congrArg (V c main_v31) (funext fun a => Fin.ext ?_)
    match a with
    | ⟨0, _⟩ => show win1_3.index t (0 : Fin 2) * 1 + 1 * 0 = 0; omega
    | ⟨1, _⟩ => show win1_3.index t (1 : Fin 2) * 128 + 1 * e.val = e.val; omega
  · show win1_4.index t (0 : Fin 2) * 5000 + 1 * (j 0).val = t.val * 5000 + (j 0).val; omega
  · show win1_4.index t (1 : Fin 2) * 128 + 1 * (j 1).val = (j 1).val; omega

/-- An index of the output array is in point t's block iff each coordinate is in the block's range on its axis. -/
theorem mem_blk1 (t : Fin cfg1.N) (i : S50000x128.Idx) :
    i ∈ ((cfg1.win 4).blk t).view.set ↔ ∀ a : Fin 2, win1_4.index t a * S5000x128.size a ≤ (i a).val ∧ (i a).val < win1_4.index t a * S5000x128.size a + S5000x128.size a := by
  show i ∈ ((View.whole main_v32).slice (win1_4.rect t)).set ↔ _
  rw [View.set_slice_whole, Rect.mem_set_unit]
  exact Iff.rfl

/-- Every row lies in some point's block: row r in block r / 5000. -/
theorem cover1 (i : S50000x128.Idx) : ∃ t : Fin cfg1.N, (cfg1.win 4).flush t = true ∧ i ∈ ((cfg1.win 4).blk t).view.set := by
  have hN : cfg1.N = 10 := N_1
  have hi0 : (i 0).val < 50000 := (i 0).isLt
  have hi1 : (i 1).val < 128 := (i 1).isLt
  obtain ⟨t, ht⟩ : ∃ t : Fin cfg1.N, t.val = (i 0).val / 5000 := ⟨⟨(i 0).val / 5000, by omega⟩, rfl⟩
  refine ⟨t, flush1_4 t, ?_⟩
  rw [mem_blk1]
  obtain ⟨-, -, -, -, -, -, -, -, e8, e9⟩ := idx_facts1 t
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 128 ≤ (i 1).val ∧ (i 1).val < win1_4.index t (1 : Fin 2) * 128 + 128; omega

/-- After the launch its output array holds `convArr` of the arrays the launch finds. -/
theorem final1 (c : Dev nD) :
    (dat1 V c).arrAt 4 cfg1.N = convArr (V c main_v30) (V c main_v19) (V c main_v5) (V c main_v31) :=
  (dat1 V c).arrAt_eq_of_cover 4 _ (fun t _ => flushed1 V c t) (cover1)

end Regions

/-! ## The head launch -/

theorem dot2a_plain : dot_S256x128_S128x128_S256x128_1_0_0_1_n_n = DotDims.plain 256 128 128 := rfl
theorem dot2b_plain : dot_S256x128_S128x1_S256x1_1_0_0_1_n_n = DotDims.plain 256 128 1 := rfl

/-- Row q of the head body's stored value: a linear layer with bias and rectifier, then a linear layer with bias. -/
theorem pay2_row (x0 : Vec Ideal S256x128 .f32) (x1 : Vec Ideal S128x128 .f32) (x2 : Vec Ideal S1x128 .f32) (x3 : Vec Ideal S128x1 .f32)
    (x4 : Vec Ideal S1x1 .f32) (q : Fin 256) :
    rowOf (k2_pay1 (F := Ideal) x0 x1 x2 x3 x4) q
      = headRow (rowOf x0 q) (mat x1) (fun e => x2 (ix2 0 e)) (mat x3) (fun o => x4 (ix2 0 o)) := by
  unfold k2_pay1
  dsimp only
  simp only [shapeCast_self]
  funext o
  unfold headRow
  refine congrArg₂ (· + ·) ?_ (congrFun (rowOf_broadcastTo_row _ _ q) o)
  refine (congrFun (rowOf_matmul _ dot2b_plain none _ _ q) o).trans ?_
  refine Finset.sum_congr rfl fun i _ => congrArg (· * mat x3 i o) ?_
  refine (congrFun (rowOf_max_zero _ _ (fun _ => Ideal.ofBits_zero_f32) q) i).trans ?_
  unfold reluLin
  refine congrArg (fun z => max z (0 : EReal)) ?_
  refine congrArg₂ (· + ·) ?_ (congrFun (rowOf_broadcastTo_row _ _ q) i)
  exact congrFun (rowOf_matmul _ dot2a_plain none _ _ q) i

/-- Pooled features through the head, as the kernel forms it, row by row. -/
def headArr (p : S256x128.Idx → EReal) (w1 : S128x128.Idx → EReal) (b1 : S1x128.Idx → EReal) (w2 : S128x1.Idx → EReal)
    (b2 : S1x1.Idx → EReal) : S256x1.Idx → EReal :=
  fun i => headRow (rowOf p (i 0)) (mat w1) (fun e => b1 (ix2 0 e)) (mat w2) (fun o => b2 (ix2 0 o)) (i 1)

theorem pay2_block (p : S256x128.Idx → EReal) (w1 : S128x128.Idx → EReal) (b1 : S1x128.Idx → EReal) (w2 : S128x1.Idx → EReal)
    (b2 : S1x1.Idx → EReal)
    (bP : Vec Ideal S256x128 .f32) (bW1 : Vec Ideal S128x128 .f32) (bB1 : Vec Ideal S1x128 .f32) (bW2 : Vec Ideal S128x1 .f32) (bB2 : Vec Ideal S1x1 .f32)
    (hP : ∀ (q : Fin 256) (k : Fin 128), bP (ix2 q k) = p (ix2 q k))
    (hW1 : ∀ (k : Fin 128) (e : Fin 128), bW1 (ix2 k e) = w1 (ix2 k e)) (hB1 : ∀ e : Fin 128, bB1 (ix2 0 e) = b1 (ix2 0 e))
    (hW2 : ∀ (k : Fin 128) (o : Fin 1), bW2 (ix2 k o) = w2 (ix2 k o)) (hB2 : ∀ o : Fin 1, bB2 (ix2 0 o) = b2 (ix2 0 o))
    (j : S256x1.Idx) (i : S256x1.Idx) (hi0 : (i 0).val = (j 0).val) (hi1 : (i 1).val = (j 1).val) :
    k2_pay1 (F := Ideal) bP bW1 bB1 bW2 bB2 j = headArr p w1 b1 w2 b2 i := by
  obtain ⟨q, o, rfl⟩ : ∃ (q : Fin 256) (o : Fin 1), j = ix2 q o := ⟨j 0, j 1, eq_ix2 j⟩
  obtain ⟨q', o', rfl⟩ : ∃ (q' : Fin 256) (o' : Fin 1), i = ix2 q' o' := ⟨i 0, i 1, eq_ix2 i⟩
  obtain rfl : q' = q := Fin.ext hi0
  obtain rfl : o' = o := Fin.ext hi1
  refine (congrFun (pay2_row bP bW1 bB1 bW2 bB2 q') o').trans ?_
  show headRow _ _ _ _ _ o' = headRow _ _ _ _ _ o'
  have h1 : rowOf bP q' = rowOf p q' := funext fun k => hP q' k
  have h2 : mat bW1 = mat w1 := funext fun k => funext fun e => hW1 k e
  have h3 : (fun e => bB1 (ix2 0 e)) = fun e => b1 (ix2 0 e) := funext hB1
  have h4 : mat bW2 = mat w2 := funext fun k => funext fun e => hW2 k e
  have h5 : (fun o => bB2 (ix2 0 o)) = fun o => b2 (ix2 0 o) := funext hB2
  rw [h1, h2, h3, h4, h5]

section Regions

variable (V : (c : Dev nD) → (b : Ref sig .tc) → Buf (Elt Ideal) ((c : Thread nD τ).loc b))

/-- The head launch's one point takes every array whole. -/
theorem idx_facts2 : ∀ t : Fin cfg2.N, win2_0.index t (0 : Fin 2) = 0 ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0 :=
  (by decide +kernel : ∀ t : Fin grid2.N, _)

/-- What the head launch's point writes back is `headArr` of the arrays the launch finds, whole. -/
theorem flushed2 (c : Dev nD) (t : Fin cfg2.N) :
    (dat2 V c).flushed 5 t = ((cfg2.win 5).blk t).view.read (Elt Ideal)
      (headArr (V c main_v44) (V c main_arg9) (V c main_v45) (V c main_arg11) (V c main_v46)) := by
  show (cfg2.win 5).cut (grid2.coords t) ((dat2 V c).after 5 t) = _
  rw [after2_5]
  unfold out2_5
  rw [View.canon_unit_zero hz]
  simp only [View.ld_unit_zero (S := S256x128) hz, View.ld_unit_zero (S := S128x128) hz, View.ld_unit_zero (S := S1x128) hz,
    View.ld_unit_zero (S := S128x1) hz, View.ld_unit_zero (S := S1x1) hz]
  obtain ⟨e0, e1, e2, e3, e4, e5, e6, e7, e8, e9, e10, e11⟩ := idx_facts2 t
  funext j
  refine pay2_block (V c main_v44) (V c main_arg9) (V c main_v45) (V c main_arg11) (V c main_v46)
    (iblk2 V c 0 t) (iblk2 V c 1 t) (iblk2 V c 2 t) (iblk2 V c 3 t) (iblk2 V c 4 t) ?_ ?_ ?_ ?_ ?_ j (((cfg2.win 5).blk t).view.emb j) ?_ ?_
  · intro q k
    show V c main_v44 (((cfg2.win 0).blk t).view.emb (ix2 q k)) = V c main_v44 _
    refine congrArg (V c main_v44) (funext fun a => Fin.ext ?_)
    match a with
    | ⟨0, _⟩ => show win2_0.index t (0 : Fin 2) * 256 + 1 * q.val = q.val; omega
    | ⟨1, _⟩ => show win2_0.index t (1 : Fin 2) * 128 + 1 * k.val = k.val; omega
  · intro k e
    show V c main_arg9 (((cfg2.win 1).blk t).view.emb (ix2 k e)) = V c main_arg9 _
    refine congrArg (V c main_arg9) (funext fun a => Fin.ext ?_)
    match a with
    | ⟨0, _⟩ => show win2_1.index t (0 : Fin 2) * 128 + 1 * k.val = k.val; omega
    | ⟨1, _⟩ => show win2_1.index t (1 : Fin 2) * 128 + 1 * e.val = e.val; omega
  · intro e
    show V c main_v45 (((cfg2.win 2).blk t).view.emb (ix2 0 e)) = V c main_v45 _
    refine congrArg (V c main_v45) (funext fun a => Fin.ext ?_)
    match a with
    | ⟨0, _⟩ => show win2_2.index t (0 : Fin 2) * 1 + 1 * 0 = 0; omega
    | ⟨1, _⟩ => show win2_2.index t (1 : Fin 2) * 128 + 1 * e.val = e.val; omega
  · intro k o
    show V c main_arg11 (((cfg2.win 3).blk t).view.emb (ix2 k o)) = V c main_arg11 _
    refine congrArg (V c main_arg11) (funext fun a => Fin.ext ?_)
    match a with
    | ⟨0, _⟩ => show win2_3.index t (0 : Fin 2) * 128 + 1 * k.val = k.val; omega
    | ⟨1, _⟩ => show win2_3.index t (1 : Fin 2) * 1 + 1 * o.val = o.val; omega
  · intro o
    show V c main_v46 (((cfg2.win 4).blk t).view.emb (ix2 0 o)) = V c main_v46 _
    refine congrArg (V c main_v46) (funext fun a => Fin.ext ?_)
    match a with
    | ⟨0, _⟩ => show win2_4.index t (0 : Fin 2) * 1 + 1 * 0 = 0; omega
    | ⟨1, _⟩ => show win2_4.index t (1 : Fin 2) * 1 + 1 * o.val = o.val; omega
  · show win2_5.index t (0 : Fin 2) * 256 + 1 * (j 0).val = (j 0).val; omega
  · show win2_5.index t (1 : Fin 2) * 1 + 1 * (j 1).val = (j 1).val; omega

theorem mem_blk2 (t : Fin cfg2.N) (i : S256x1.Idx) :
    i ∈ ((cfg2.win 5).blk t).view.set ↔ ∀ a : Fin 2, win2_5.index t a * S256x1.size a ≤ (i a).val ∧ (i a).val < win2_5.index t a * S256x1.size a + S256x1.size a := by
  show i ∈ ((View.whole main_v47).slice (win2_5.rect t)).set ↔ _
  rw [View.set_slice_whole, Rect.mem_set_unit]
  exact Iff.rfl

theorem cover2 (i : S256x1.Idx) : ∃ t : Fin cfg2.N, (cfg2.win 5).flush t = true ∧ i ∈ ((cfg2.win 5).blk t).view.set := by
  have hi0 : (i 0).val < 256 := (i 0).isLt
  have hi1 : (i 1).val < 1 := (i 1).isLt
  refine ⟨t2_0, flush2_5 t2_0, ?_⟩
  rw [mem_blk2]
  obtain ⟨-, -, -, -, -, -, -, -, -, -, e10, e11⟩ := idx_facts2 t2_0
  intro a
  match a with
  | ⟨0, _⟩ => show win2_5.index t2_0 (0 : Fin 2) * 256 ≤ (i 0).val ∧ (i 0).val < win2_5.index t2_0 (0 : Fin 2) * 256 + 256; omega
  | ⟨1, _⟩ => show win2_5.index t2_0 (1 : Fin 2) * 1 ≤ (i 1).val ∧ (i 1).val < win2_5.index t2_0 (1 : Fin 2) * 1 + 1; omega

/-- After the head launch its output array holds `headArr` of the arrays the launch finds. -/
theorem final2 (c : Dev nD) :
    (dat2 V c).arrAt 5 cfg2.N = headArr (V c main_v44) (V c main_arg9) (V c main_v45) (V c main_arg11) (V c main_v46) :=
  (dat2 V c).arrAt_eq_of_cover 5 _ (fun t _ => flushed2 V c t) (cover2)

end Regions

end Cert.KernelIdeal.Layers

end
-- ==== Proof.RefValue.lean ====
/-
  The idealized reference as a composition of four stages, and its convolution stage read by rows.

  The reference aggregates each node's neighbours (rows gathered at the edges' sources and added at the edges'
  targets), applies the dense part of a graph convolution, does both once more on the result, averages the nodes of
  each graph, and applies a two-layer head. Aggregation and averaging are carried as they are printed — the same
  operations occur in the kernel's program and are never opened. The dense part is read by rows: row p of
  rectifier((a · Wr + bias) + x · Wo) is `convRow` of row p of `a` and of `x`.
-/
import proofs.«144735_j15539191677055_2_alg».proof.Proof.Gen.ReferenceIdeal.Read
import proofs.«144735_j15539191677055_2_alg».proof.Proof.LibRowLayers

set_option maxRecDepth 16384

noncomputable section

namespace Cert.ReferenceIdeal.RefValue

open Cert.ReferenceIdeal Cert.ReferenceIdeal.Gen Cert.ReferenceIdeal.Read Idealize.ShloMosaic Idealize.ShloMosaic.ValueIdx RowRead RowLayers

/-- Neighbour aggregation: the rows of `h` gathered at the edges' source nodes and added at their target nodes. -/
def aggOf (x1 : (⟨S2x800000, .i32⟩ : BufTy).Contents (Elt Ideal)) (h : FVec Ideal S50000x128 .f32) : FVec Ideal S50000x128 .f32 :=
  Host.scatterAdd scatter_S50000x128_S800000x1_S800000x128_1_0_0_1 (val_main_v11 (F := Ideal)) (val_main_v12 (F := Ideal) x1)
    (Host.gather gather_S50000x128_S800000x1_S800000x128_1_0_n_n_0_1_1128 h (val_main_v9 (F := Ideal) x1))

/-- The dense part of a graph convolution on whole arrays, as the reference composes it. -/
def convOf (a x : FVec Ideal S50000x128 .f32) (wr : FVec Ideal S128x128 .f32) (b : FVec Ideal S128 .f32) (wo : FVec Ideal S128x128 .f32) :
    FVec Ideal S50000x128 .f32 :=
  maximumf (addf (addf (Host.dotGeneral dot_S50000x128_S128x128_S50000x128_1_0_0_1_n_n none a wr)
      (broadcastInDim S50000x128 ![0, 1] bcast_S1x128_S50000x128_0_1 (broadcastInDim S1x128 ![1] bcast_S128_S1x128_1 b)))
      (Host.dotGeneral dot_S50000x128_S128x128_S50000x128_1_0_0_1_n_n none x wo))
    (broadcastInDim S50000x128 ![] bcast_S_S50000x128 (constant (F := Ideal) S_ .f32 0x00000000#32))

/-- The mean over each graph's nodes: the rows added per graph, divided by the larger of the node count and one. -/
def poolOf (x2 : (⟨S50000, .i32⟩ : BufTy).Contents (Elt Ideal)) (h : FVec Ideal S50000x128 .f32) : FVec Ideal S256x128 .f32 :=
  Host.divf (Host.scatterAdd scatter_S256x128_S50000x1_S50000x128_1_0_0_1 (val_main_v38 (F := Ideal)) (val_main_v39 (F := Ideal) x2) h)
    (val_main_v48 (F := Ideal) x2)

/-- The head on whole arrays, as the reference composes it. -/
def headOf (p : FVec Ideal S256x128 .f32) (w1 : FVec Ideal S128x128 .f32) (b1 : FVec Ideal S128 .f32) (w2 : FVec Ideal S128x1 .f32)
    (b2 : FVec Ideal S1 .f32) : FVec Ideal S256x1 .f32 :=
  addf (Host.dotGeneral dot_S256x128_S128x1_S256x1_1_0_0_1_n_n none
      (maximumf (addf (Host.dotGeneral dot_S256x128_S128x128_S256x128_1_0_0_1_n_n none p w1)
          (broadcastInDim S256x128 ![0, 1] bcast_S1x128_S256x128_0_1 (broadcastInDim S1x128 ![1] bcast_S128_S1x128_1 b1)))
        (broadcastInDim S256x128 ![] bcast_S_S256x128 (constant (F := Ideal) S_ .f32 0x00000000#32))) w2)
    (broadcastInDim S256x1 ![0, 1] bcast_S1x1_S256x1_0_1 (broadcastInDim S1x1 ![1] bcast_S1_S1x1_1 b2))

/-- The whole network from the thirteen arguments. -/
def netOf (x0 : FVec Ideal S50000x128 .f32) (x1 : (⟨S2x800000, .i32⟩ : BufTy).Contents (Elt Ideal)) (x2 : (⟨S50000, .i32⟩ : BufTy).Contents (Elt Ideal))
    (x3 : FVec Ideal S128x128 .f32) (x4 : FVec Ideal S128 .f32) (x5 x6 : FVec Ideal S128x128 .f32) (x7 : FVec Ideal S128 .f32)
    (x8 x9 : FVec Ideal S128x128 .f32) (x10 : FVec Ideal S128 .f32) (x11 : FVec Ideal S128x1 .f32) (x12 : FVec Ideal S1 .f32) : FVec Ideal S256x1 .f32 :=
  headOf (poolOf x2 (convOf (aggOf x1 (convOf (aggOf x1 x0) x0 x3 x4 x5)) (convOf (aggOf x1 x0) x0 x3 x4 x5) x6 x7 x8)) x9 x10 x11 x12

theorem layer1_eq (x0 : FVec Ideal S50000x128 .f32) (x1 : (⟨S2x800000, .i32⟩ : BufTy).Contents (Elt Ideal))
    (x3 : FVec Ideal S128x128 .f32) (x4 : FVec Ideal S128 .f32) (x5 : FVec Ideal S128x128 .f32) :
    val_main_v20 (F := Ideal) x0 x1 x3 x4 x5 = convOf (aggOf x1 x0) x0 x3 x4 x5 := rfl

theorem layer2_eq (x0 : FVec Ideal S50000x128 .f32) (x1 : (⟨S2x800000, .i32⟩ : BufTy).Contents (Elt Ideal))
    (x3 : FVec Ideal S128x128 .f32) (x4 : FVec Ideal S128 .f32) (x5 x6 : FVec Ideal S128x128 .f32) (x7 : FVec Ideal S128 .f32) (x8 : FVec Ideal S128x128 .f32) :
    val_main_v37 (F := Ideal) x0 x1 x3 x4 x5 x6 x7 x8
      = convOf (aggOf x1 (val_main_v20 (F := Ideal) x0 x1 x3 x4 x5)) (val_main_v20 (F := Ideal) x0 x1 x3 x4 x5) x6 x7 x8 := rfl

theorem pool_eq (x0 : FVec Ideal S50000x128 .f32) (x1 : (⟨S2x800000, .i32⟩ : BufTy).Contents (Elt Ideal)) (x2 : (⟨S50000, .i32⟩ : BufTy).Contents (Elt Ideal))
    (x3 : FVec Ideal S128x128 .f32) (x4 : FVec Ideal S128 .f32) (x5 x6 : FVec Ideal S128x128 .f32) (x7 : FVec Ideal S128 .f32) (x8 : FVec Ideal S128x128 .f32) :
    val_main_v49 (F := Ideal) x0 x1 x2 x3 x4 x5 x6 x7 x8 = poolOf x2 (val_main_v37 (F := Ideal) x0 x1 x3 x4 x5 x6 x7 x8) := rfl

theorem head_eq (x0 : FVec Ideal S50000x128 .f32) (x1 : (⟨S2x800000, .i32⟩ : BufTy).Contents (Elt Ideal)) (x2 : (⟨S50000, .i32⟩ : BufTy).Contents (Elt Ideal))
    (x3 : FVec Ideal S128x128 .f32) (x4 : FVec Ideal S128 .f32) (x5 x6 : FVec Ideal S128x128 .f32) (x7 : FVec Ideal S128 .f32)
    (x8 x9 : FVec Ideal S128x128 .f32) (x10 : FVec Ideal S128 .f32) (x11 : FVec Ideal S128x1 .f32) (x12 : FVec Ideal S1 .f32) :
    val_main_v58 (F := Ideal) x0 x1 x2 x3 x4 x5 x6 x7 x8 x9 x10 x11 x12
      = headOf (val_main_v49 (F := Ideal) x0 x1 x2 x3 x4 x5 x6 x7 x8) x9 x10 x11 x12 := rfl

/-- The reference's result is the network of its arguments. -/
theorem val_eq_net (x0 : FVec Ideal S50000x128 .f32) (x1 : (⟨S2x800000, .i32⟩ : BufTy).Contents (Elt Ideal)) (x2 : (⟨S50000, .i32⟩ : BufTy).Contents (Elt Ideal))
    (x3 : FVec Ideal S128x128 .f32) (x4 : FVec Ideal S128 .f32) (x5 x6 : FVec Ideal S128x128 .f32) (x7 : FVec Ideal S128 .f32)
    (x8 x9 : FVec Ideal S128x128 .f32) (x10 : FVec Ideal S128 .f32) (x11 : FVec Ideal S128x1 .f32) (x12 : FVec Ideal S1 .f32) :
    val_main_v58 (F := Ideal) x0 x1 x2 x3 x4 x5 x6 x7 x8 x9 x10 x11 x12 = netOf x0 x1 x2 x3 x4 x5 x6 x7 x8 x9 x10 x11 x12 := by
  rw [head_eq, pool_eq, layer2_eq, layer1_eq]
  rfl

/-! ## The dense part and the head, by rows -/

theorem dotA_plain : dot_S50000x128_S128x128_S50000x128_1_0_0_1_n_n = DotDims.plain 50000 128 128 := rfl
theorem dotB_plain : dot_S256x128_S128x128_S256x128_1_0_0_1_n_n = DotDims.plain 256 128 128 := rfl
theorem dotC_plain : dot_S256x128_S128x1_S256x1_1_0_0_1_n_n = DotDims.plain 256 128 1 := rfl

/-- Row p of the reference's dense part is `convRow` of row p of its two inputs. -/
theorem rowOf_convOf (a x : FVec Ideal S50000x128 .f32) (wr : FVec Ideal S128x128 .f32) (b : FVec Ideal S128 .f32) (wo : FVec Ideal S128x128 .f32) (p : Fin 50000) :
    rowOf (convOf a x wr b wo) p = convRow (rowOf a p) (rowOf x p) (mat wr) (mat wo) (fun e => b (ix1 e)) := by
  unfold convOf
  refine (rowOf_max_host _ bcast_S_S50000x128 p).trans ?_
  funext e
  unfold convRow
  refine congrArg (fun z => max z (0 : EReal)) ?_
  refine congrArg₂ (· + ·) (congrArg₂ (· + ·) ?_ ?_) ?_
  · exact congrFun (rowOf_dotGeneral _ dotA_plain none _ a wr p) e
  · exact congrFun (rowOf_broadcastInDim_vec b bcast_S128_S1x128_1 bcast_S1x128_S50000x128_0_1 p) e
  · exact congrFun (rowOf_dotGeneral _ dotA_plain none _ x wo p) e

/-- Row p of the reference's head is `headRow` of row p of its input. -/
theorem rowOf_headOf (h : FVec Ideal S256x128 .f32) (w1 : FVec Ideal S128x128 .f32) (b1 : FVec Ideal S128 .f32) (w2 : FVec Ideal S128x1 .f32)
    (b2 : FVec Ideal S1 .f32) (p : Fin 256) :
    rowOf (headOf h w1 b1 w2 b2) p = headRow (rowOf h p) (mat w1) (fun e => b1 (ix1 e)) (mat w2) (fun o => b2 (ix1 o)) := by
  unfold headOf
  funext o
  unfold headRow
  refine congrArg₂ (· + ·) ?_ (congrFun (rowOf_broadcastInDim_vec b2 bcast_S1_S1x1_1 bcast_S1x1_S256x1_0_1 p) o)
  refine (congrFun (rowOf_dotGeneral _ dotC_plain none _ _ w2 p) o).trans ?_
  refine Finset.sum_congr rfl fun i _ => congrArg (· * mat w2 i o) ?_
  refine (congrFun (rowOf_max_host _ bcast_S_S256x128 p) i).trans ?_
  unfold reluLin
  refine congrArg (fun z => max z (0 : EReal)) ?_
  refine congrArg₂ (· + ·) ?_ (congrFun (rowOf_broadcastInDim_vec b1 bcast_S128_S1x128_1 bcast_S1x128_S256x128_0_1 p) i)
  exact congrFun (rowOf_dotGeneral _ dotB_plain none _ h w1 p) i

end Cert.ReferenceIdeal.RefValue

end
-- ==== Proof.KernelHost.lean ====
/-
  The idealized kernel program's buffer contents at each boundary between its stretches of host operations and its
  kernel launches, as functions of the thirteen arguments.

  Before the first launch the host aggregates the node features over the edges, stacks the two weight matrices of the
  first convolution and makes its bias a row; the launch leaves the first layer's features. Between the launches the
  host aggregates those, and the second launch leaves the second layer's features (its stacked weights were made before
  the first launch and nothing has written them since). Then the host averages per graph and makes the head's biases
  rows, and the head launch leaves the result. Aggregation and averaging are the reference's own operations, spelt the
  same, and are never opened here.
-/
import proofs.«144735_j15539191677055_2_alg».proof.Proof.KernelLayers
import proofs.«144735_j15539191677055_2_alg».proof.Proof.RefValue

set_option maxRecDepth 16384

noncomputable section

namespace Cert.KernelIdeal.HostValue

open Idealize.ShloMosaic Idealize.ShloMosaic.TcCoe Idealize.ShloMosaic.ValueIdx Idealize.SL.Sem Idealize.ShloMosaic.StableHlo
open Cert.KernelIdeal Cert.KernelIdeal.Gen Cert.KernelIdeal.Layers
open Cert.ReferenceIdeal.RefValue (aggOf poolOf)

variable (m : (ℓ : Loc nD τ sig) → Buf (Elt Ideal) ℓ) (ρ : Dev nD → PrngReg) (c : Dev nD)

/-! ## Before the first launch -/

theorem W1_v17 : W1 m ρ c (Proc.devRef .tc main_v17) = aggOf (m ((c : Thread nD τ).loc main_arg1)) (m ((c : Thread nD τ).loc main_arg0)) := by
  show StableHlo.after hostOps0 (W0 m ρ c) (Proc.devRef .tc main_v17) = _
  after_results_simp <;> rfl

theorem W1_arg0 : W1 m ρ c (Proc.devRef .tc main_arg0) = (m ((c : Thread nD τ).loc main_arg0)) := by
  show StableHlo.after hostOps0 (W0 m ρ c) (Proc.devRef .tc main_arg0) = _
  after_results_simp <;> rfl

theorem W1_v4 : W1 m ρ c (Proc.devRef .tc main_v4)
    = concatenate S256x128 0 [⟨S128x128, (m ((c : Thread nD τ).loc main_arg3))⟩, ⟨S128x128, (m ((c : Thread nD τ).loc main_arg5))⟩] concatenates_S128x128_S128x128_S256x128_d0 := by
  show StableHlo.after hostOps0 (W0 m ρ c) (Proc.devRef .tc main_v4) = _
  after_results_simp <;> rfl

theorem W1_v18 : W1 m ρ c (Proc.devRef .tc main_v18) = shapeCast S1x128 (m ((c : Thread nD τ).loc main_arg4)) shapeCasts_S128_S1x128 := by
  show StableHlo.after hostOps0 (W0 m ρ c) (Proc.devRef .tc main_v18) = _
  after_results_simp <;> rfl

theorem W1_v1 : W1 m ρ c (Proc.devRef .tc main_v1) = Cert.ReferenceIdeal.Read.val_main_v1 (F := Ideal) (m ((c : Thread nD τ).loc main_arg1)) := by
  show StableHlo.after hostOps0 (W0 m ρ c) (Proc.devRef .tc main_v1) = _
  after_results_simp <;> rfl

theorem W1_v3 : W1 m ρ c (Proc.devRef .tc main_v3) = Cert.ReferenceIdeal.Read.val_main_v3 (F := Ideal) (m ((c : Thread nD τ).loc main_arg1)) := by
  show StableHlo.after hostOps0 (W0 m ρ c) (Proc.devRef .tc main_v3) = _
  after_results_simp <;> rfl

theorem W1_v5 : W1 m ρ c (Proc.devRef .tc main_v5)
    = concatenate S256x128 0 [⟨S128x128, (m ((c : Thread nD τ).loc main_arg6))⟩, ⟨S128x128, (m ((c : Thread nD τ).loc main_arg8))⟩] concatenates_S128x128_S128x128_S256x128_d0 := by
  show StableHlo.after hostOps0 (W0 m ρ c) (Proc.devRef .tc main_v5) = _
  after_results_simp <;> rfl

theorem W1_arg2 : W1 m ρ c (Proc.devRef .tc main_arg2) = (m ((c : Thread nD τ).loc main_arg2)) := by
  show StableHlo.after hostOps0 (W0 m ρ c) (Proc.devRef .tc main_arg2) = _
  after_results_simp <;> rfl

theorem W1_arg7 : W1 m ρ c (Proc.devRef .tc main_arg7) = (m ((c : Thread nD τ).loc main_arg7)) := by
  show StableHlo.after hostOps0 (W0 m ρ c) (Proc.devRef .tc main_arg7) = _
  after_results_simp <;> rfl

theorem W1_arg9 : W1 m ρ c (Proc.devRef .tc main_arg9) = (m ((c : Thread nD τ).loc main_arg9)) := by
  show StableHlo.after hostOps0 (W0 m ρ c) (Proc.devRef .tc main_arg9) = _
  after_results_simp <;> rfl

theorem W1_arg10 : W1 m ρ c (Proc.devRef .tc main_arg10) = (m ((c : Thread nD τ).loc main_arg10)) := by
  show StableHlo.after hostOps0 (W0 m ρ c) (Proc.devRef .tc main_arg10) = _
  after_results_simp <;> rfl

theorem W1_arg11 : W1 m ρ c (Proc.devRef .tc main_arg11) = (m ((c : Thread nD τ).loc main_arg11)) := by
  show StableHlo.after hostOps0 (W0 m ρ c) (Proc.devRef .tc main_arg11) = _
  after_results_simp <;> rfl

theorem W1_arg12 : W1 m ρ c (Proc.devRef .tc main_arg12) = (m ((c : Thread nD τ).loc main_arg12)) := by
  show StableHlo.after hostOps0 (W0 m ρ c) (Proc.devRef .tc main_arg12) = _
  after_results_simp <;> rfl

/-! ## The first launch, and what it does not touch -/

/-- The first layer's features: the convolution of the aggregated and the plain node features. -/
def feat1 : S50000x128.Idx → EReal :=
  convArr (aggOf (m ((c : Thread nD τ).loc main_arg1)) (m ((c : Thread nD τ).loc main_arg0))) (m ((c : Thread nD τ).loc main_arg0))
    (concatenate S256x128 0 [⟨S128x128, (m ((c : Thread nD τ).loc main_arg3))⟩, ⟨S128x128, (m ((c : Thread nD τ).loc main_arg5))⟩] concatenates_S128x128_S128x128_S256x128_d0)
    (shapeCast S1x128 (m ((c : Thread nD τ).loc main_arg4)) shapeCasts_S128_S1x128)

theorem W2_v19 : W2 m ρ c (Proc.devRef .tc main_v19) = feat1 m c := by
  refine (W2_arr m ρ c 4).trans ((final0 (V1 m ρ) c).trans ?_)
  show convArr (W1 m ρ c (Proc.devRef .tc main_v17)) (W1 m ρ c (Proc.devRef .tc main_arg0)) (W1 m ρ c (Proc.devRef .tc main_v4))
    (W1 m ρ c (Proc.devRef .tc main_v18)) = _
  rw [W1_v17, W1_arg0, W1_v4, W1_v18]
  rfl

theorem W2_v1 : W2 m ρ c (Proc.devRef .tc main_v1) = W1 m ρ c (Proc.devRef .tc main_v1) := W2_of_ne m ρ c main_v1 (by decide)
theorem W2_v3 : W2 m ρ c (Proc.devRef .tc main_v3) = W1 m ρ c (Proc.devRef .tc main_v3) := W2_of_ne m ρ c main_v3 (by decide)
theorem W2_v5 : W2 m ρ c (Proc.devRef .tc main_v5) = W1 m ρ c (Proc.devRef .tc main_v5) := W2_of_ne m ρ c main_v5 (by decide)
theorem W2_arg2 : W2 m ρ c (Proc.devRef .tc main_arg2) = W1 m ρ c (Proc.devRef .tc main_arg2) := W2_of_ne m ρ c main_arg2 (by decide)
theorem W2_arg7 : W2 m ρ c (Proc.devRef .tc main_arg7) = W1 m ρ c (Proc.devRef .tc main_arg7) := W2_of_ne m ρ c main_arg7 (by decide)
theorem W2_arg9 : W2 m ρ c (Proc.devRef .tc main_arg9) = W1 m ρ c (Proc.devRef .tc main_arg9) := W2_of_ne m ρ c main_arg9 (by decide)
theorem W2_arg10 : W2 m ρ c (Proc.devRef .tc main_arg10) = W1 m ρ c (Proc.devRef .tc main_arg10) := W2_of_ne m ρ c main_arg10 (by decide)
theorem W2_arg11 : W2 m ρ c (Proc.devRef .tc main_arg11) = W1 m ρ c (Proc.devRef .tc main_arg11) := W2_of_ne m ρ c main_arg11 (by decide)
theorem W2_arg12 : W2 m ρ c (Proc.devRef .tc main_arg12) = W1 m ρ c (Proc.devRef .tc main_arg12) := W2_of_ne m ρ c main_arg12 (by decide)

/-! ## Between the first and the second launch -/

theorem W3_v30 : W3 m ρ c (Proc.devRef .tc main_v30) = aggOf (m ((c : Thread nD τ).loc main_arg1)) (feat1 m c) := by
  show StableHlo.after hostOps1 (W2 m ρ c) (Proc.devRef .tc main_v30) = _
  after_results_simp
  rw [W2_v1, W2_v3, W2_v19, W1_v1, W1_v3]
  rfl

theorem W3_v19 : W3 m ρ c (Proc.devRef .tc main_v19) = feat1 m c := by
  show StableHlo.after hostOps1 (W2 m ρ c) (Proc.devRef .tc main_v19) = _
  after_results_simp
  exact W2_v19 m ρ c

theorem W3_v5 : W3 m ρ c (Proc.devRef .tc main_v5)
    = concatenate S256x128 0 [⟨S128x128, (m ((c : Thread nD τ).loc main_arg6))⟩, ⟨S128x128, (m ((c : Thread nD τ).loc main_arg8))⟩] concatenates_S128x128_S128x128_S256x128_d0 := by
  show StableHlo.after hostOps1 (W2 m ρ c) (Proc.devRef .tc main_v5) = _
  after_results_simp
  exact (W2_v5 m ρ c).trans (W1_v5 m ρ c)

theorem W3_v31 : W3 m ρ c (Proc.devRef .tc main_v31) = shapeCast S1x128 (m ((c : Thread nD τ).loc main_arg7)) shapeCasts_S128_S1x128 := by
  show StableHlo.after hostOps1 (W2 m ρ c) (Proc.devRef .tc main_v31) = _
  after_results_simp
  rw [W2_arg7, W1_arg7]
  rfl

theorem W3_arg2 : W3 m ρ c (Proc.devRef .tc main_arg2) = (m ((c : Thread nD τ).loc main_arg2)) := by
  show StableHlo.after hostOps1 (W2 m ρ c) (Proc.devRef .tc main_arg2) = _
  after_results_simp
  exact (W2_arg2 m ρ c).trans (W1_arg2 m ρ c)

theorem W3_arg9 : W3 m ρ c (Proc.devRef .tc main_arg9) = (m ((c : Thread nD τ).loc main_arg9)) := by
  show StableHlo.after hostOps1 (W2 m ρ c) (Proc.devRef .tc main_arg9) = _
  after_results_simp
  exact (W2_arg9 m ρ c).trans (W1_arg9 m ρ c)

theorem W3_arg10 : W3 m ρ c (Proc.devRef .tc main_arg10) = (m ((c : Thread nD τ).loc main_arg10)) := by
  show StableHlo.after hostOps1 (W2 m ρ c) (Proc.devRef .tc main_arg10) = _
  after_results_simp
  exact (W2_arg10 m ρ c).trans (W1_arg10 m ρ c)

theorem W3_arg11 : W3 m ρ c (Proc.devRef .tc main_arg11) = (m ((c : Thread nD τ).loc main_arg11)) := by
  show StableHlo.after hostOps1 (W2 m ρ c) (Proc.devRef .tc main_arg11) = _
  after_results_simp
  exact (W2_arg11 m ρ c).trans (W1_arg11 m ρ c)

theorem W3_arg12 : W3 m ρ c (Proc.devRef .tc main_arg12) = (m ((c : Thread nD τ).loc main_arg12)) := by
  show StableHlo.after hostOps1 (W2 m ρ c) (Proc.devRef .tc main_arg12) = _
  after_results_simp
  exact (W2_arg12 m ρ c).trans (W1_arg12 m ρ c)

/-! ## The second launch -/

/-- The second layer's features. -/
def feat2 : S50000x128.Idx → EReal :=
  convArr (aggOf (m ((c : Thread nD τ).loc main_arg1)) (feat1 m c)) (feat1 m c)
    (concatenate S256x128 0 [⟨S128x128, (m ((c : Thread nD τ).loc main_arg6))⟩, ⟨S128x128, (m ((c : Thread nD τ).loc main_arg8))⟩] concatenates_S128x128_S128x128_S256x128_d0)
    (shapeCast S1x128 (m ((c : Thread nD τ).loc main_arg7)) shapeCasts_S128_S1x128)

theorem W4_v32 : W4 m ρ c (Proc.devRef .tc main_v32) = feat2 m c := by
  refine (W4_arr m ρ c 4).trans ((final1 (V3 m ρ) c).trans ?_)
  show convArr (W3 m ρ c (Proc.devRef .tc main_v30)) (W3 m ρ c (Proc.devRef .tc main_v19)) (W3 m ρ c (Proc.devRef .tc main_v5))
    (W3 m ρ c (Proc.devRef .tc main_v31)) = _
  rw [W3_v30, W3_v19, W3_v5, W3_v31]
  rfl

theorem W4_arg2 : W4 m ρ c (Proc.devRef .tc main_arg2) = (m ((c : Thread nD τ).loc main_arg2)) :=
  (W4_of_ne m ρ c main_arg2 (by decide)).trans (W3_arg2 m ρ c)
theorem W4_arg9 : W4 m ρ c (Proc.devRef .tc main_arg9) = (m ((c : Thread nD τ).loc main_arg9)) :=
  (W4_of_ne m ρ c main_arg9 (by decide)).trans (W3_arg9 m ρ c)
theorem W4_arg10 : W4 m ρ c (Proc.devRef .tc main_arg10) = (m ((c : Thread nD τ).loc main_arg10)) :=
  (W4_of_ne m ρ c main_arg10 (by decide)).trans (W3_arg10 m ρ c)
theorem W4_arg11 : W4 m ρ c (Proc.devRef .tc main_arg11) = (m ((c : Thread nD τ).loc main_arg11)) :=
  (W4_of_ne m ρ c main_arg11 (by decide)).trans (W3_arg11 m ρ c)
theorem W4_arg12 : W4 m ρ c (Proc.devRef .tc main_arg12) = (m ((c : Thread nD τ).loc main_arg12)) :=
  (W4_of_ne m ρ c main_arg12 (by decide)).trans (W3_arg12 m ρ c)

/-! ## Between the second launch and the head -/

theorem W5_v44 : W5 m ρ c (Proc.devRef .tc main_v44) = poolOf (m ((c : Thread nD τ).loc main_arg2)) (feat2 m c) := by
  show StableHlo.after hostOps2 (W4 m ρ c) (Proc.devRef .tc main_v44) = _
  after_results_simp
  rw [W4_v32, W4_arg2]
  rfl

theorem W5_v45 : W5 m ρ c (Proc.devRef .tc main_v45) = shapeCast S1x128 (m ((c : Thread nD τ).loc main_arg10)) shapeCasts_S128_S1x128 := by
  show StableHlo.after hostOps2 (W4 m ρ c) (Proc.devRef .tc main_v45) = _
  after_results_simp
  rw [W4_arg10]
  rfl

theorem W5_v46 : W5 m ρ c (Proc.devRef .tc main_v46) = shapeCast S1x1 (m ((c : Thread nD τ).loc main_arg12)) shapeCasts_S1_S1x1 := by
  show StableHlo.after hostOps2 (W4 m ρ c) (Proc.devRef .tc main_v46) = _
  after_results_simp
  rw [W4_arg12]
  rfl

theorem W5_arg9 : W5 m ρ c (Proc.devRef .tc main_arg9) = (m ((c : Thread nD τ).loc main_arg9)) := by
  show StableHlo.after hostOps2 (W4 m ρ c) (Proc.devRef .tc main_arg9) = _
  after_results_simp
  exact W4_arg9 m ρ c

theorem W5_arg11 : W5 m ρ c (Proc.devRef .tc main_arg11) = (m ((c : Thread nD τ).loc main_arg11)) := by
  show StableHlo.after hostOps2 (W4 m ρ c) (Proc.devRef .tc main_arg11) = _
  after_results_simp
  exact W4_arg11 m ρ c

/-! ## The head launch -/

/-- The program's result: the head of the per-graph averages of the second layer's features. -/
theorem W6_v47 : W6 m ρ c (Proc.devRef .tc main_v47)
    = headArr (poolOf (m ((c : Thread nD τ).loc main_arg2)) (feat2 m c)) (m ((c : Thread nD τ).loc main_arg9)) (shapeCast S1x128 (m ((c : Thread nD τ).loc main_arg10)) shapeCasts_S128_S1x128) (m ((c : Thread nD τ).loc main_arg11))
        (shapeCast S1x1 (m ((c : Thread nD τ).loc main_arg12)) shapeCasts_S1_S1x1) := by
  refine (W6_arr m ρ c 5).trans ((final2 (V5 m ρ) c).trans ?_)
  show headArr (W5 m ρ c (Proc.devRef .tc main_v44)) (W5 m ρ c (Proc.devRef .tc main_arg9)) (W5 m ρ c (Proc.devRef .tc main_v45))
    (W5 m ρ c (Proc.devRef .tc main_arg11)) (W5 m ρ c (Proc.devRef .tc main_v46)) = _
  rw [W5_v44, W5_arg9, W5_v45, W5_arg11, W5_v46]

end Cert.KernelIdeal.HostValue

end
-- ==== Proof.Bridge.lean ====
/-
  The kernel's layers are the reference's layers.

  The kernel's convolution forms one product of the two feature rows set end to end with the two weight matrices
  stacked, and adds a bias row; the reference forms the two products apart and adds the bias vector between them. Row
  by row the two are `convRowFused` and `convRow`, equal on all extended reals (the long sum splits into its two
  stretches; addition is commutative and associative). The two heads differ only in how the bias vectors are made rows.
-/
import proofs.«144735_j15539191677055_2_alg».proof.Proof.KernelLayers
import proofs.«144735_j15539191677055_2_alg».proof.Proof.RefValue

set_option maxRecDepth 16384

noncomputable section

namespace Cert.KernelIdeal.Bridge

open Idealize.ShloMosaic Idealize.ShloMosaic.ValueIdx RowRead RowLayers
open Cert.KernelIdeal Cert.KernelIdeal.Layers
open Cert.ReferenceIdeal.RefValue (convOf headOf rowOf_convOf rowOf_headOf)

/-- The kernel's convolution of stacked weights and a bias row is the reference's dense part. -/
theorem convArr_eq_convOf (a x : S50000x128.Idx → EReal) (wr wo : S128x128.Idx → EReal) (b : S128.Idx → EReal)
    (hc : Shape.Concatenates [S128x128, S128x128] S256x128 0) (hs : S128.ShapeCasts S1x128) :
    convArr a x (concatenate S256x128 0 [⟨S128x128, wr⟩, ⟨S128x128, wo⟩] hc) (shapeCast S1x128 b hs) = convOf a x wr b wo := by
  funext i
  obtain ⟨p, e, rfl⟩ : ∃ (p : Fin 50000) (e : Fin 128), i = ix2 p e := ⟨i 0, i 1, eq_ix2 i⟩
  refine Eq.trans ?_ (congrFun (rowOf_convOf a x wr b wo p) e).symm
  rw [← convRowFused_eq (N := 256) rfl]
  unfold convArr convRowFused
  show reluLin (besideRow (N := 256) rfl (rowOf a p) (rowOf x p)) (mat (concatenate S256x128 0 [⟨S128x128, wr⟩, ⟨S128x128, wo⟩] hc))
      (fun e => shapeCast S1x128 b hs (ix2 0 e)) e
    = reluLin (besideRow (N := 256) rfl (rowOf a p) (rowOf x p)) (stackMat (N := 256) rfl (mat wr) (mat wo)) (fun e => b (ix1 e)) e
  rw [mat_stack wr wo hc rfl,
    show (fun e : Fin 128 => shapeCast S1x128 b hs (ix2 0 e)) = (fun e => b (ix1 e)) from funext fun e => shapeCast_vec_row_apply b hs e]

/-- The kernel's head with its biases made rows is the reference's head. -/
theorem headArr_eq_headOf (p : S256x128.Idx → EReal) (w1 : S128x128.Idx → EReal) (b1 : S128.Idx → EReal) (w2 : S128x1.Idx → EReal)
    (b2 : S1.Idx → EReal) (hs1 : S128.ShapeCasts S1x128) (hs2 : S1.ShapeCasts S1x1) :
    headArr p w1 (shapeCast S1x128 b1 hs1) w2 (shapeCast S1x1 b2 hs2) = headOf p w1 b1 w2 b2 := by
  funext i
  obtain ⟨q, o, rfl⟩ : ∃ (q : Fin 256) (o : Fin 1), i = ix2 q o := ⟨i 0, i 1, eq_ix2 i⟩
  refine Eq.trans ?_ (congrFun (rowOf_headOf p w1 b1 w2 b2 q) o).symm
  unfold headArr
  show headRow (rowOf p q) (mat w1) (fun e => shapeCast S1x128 b1 hs1 (ix2 0 e)) (mat w2) (fun o => shapeCast S1x1 b2 hs2 (ix2 0 o)) o = _
  rw [show (fun e : Fin 128 => shapeCast S1x128 b1 hs1 (ix2 0 e)) = (fun e => b1 (ix1 e)) from funext fun e => shapeCast_vec_row_apply b1 hs1 e,
    show (fun o : Fin 1 => shapeCast S1x1 b2 hs2 (ix2 0 o)) = (fun o => b2 (ix1 o)) from funext fun o => shapeCast_vec_row_apply b2 hs2 o]

end Cert.KernelIdeal.Bridge

end
-- ==== Proof.KernelValue.lean ====
/-
  The idealized kernel program's result is the network of its arguments.

  The result buffer's last contents are the head of the per-graph averages of the second layer's features; each layer
  is the reference's dense part of the aggregated and the plain features of the layer before, and the head is the
  reference's head: the composition is the reference's network, term for term.
-/
import proofs.«144735_j15539191677055_2_alg».proof.Proof.KernelHost
import proofs.«144735_j15539191677055_2_alg».proof.Proof.Bridge

set_option maxRecDepth 16384

noncomputable section

namespace Cert.KernelIdeal.HostValue

open Idealize.ShloMosaic Idealize.ShloMosaic.TcCoe Idealize.SL.Sem
open Cert.KernelIdeal Cert.KernelIdeal.Gen Cert.KernelIdeal.Layers
open Cert.ReferenceIdeal.RefValue (aggOf poolOf convOf headOf netOf)

variable (m : (ℓ : Loc nD τ sig) → Buf (Elt Ideal) ℓ) (ρ : Dev nD → PrngReg) (c : Dev nD)

/-- The first layer's features are the reference's. -/
theorem feat1_eq : feat1 m c = convOf (aggOf (m ((c : Thread nD τ).loc main_arg1)) (m ((c : Thread nD τ).loc main_arg0))) (m ((c : Thread nD τ).loc main_arg0)) (m ((c : Thread nD τ).loc main_arg3)) (m ((c : Thread nD τ).loc main_arg4)) (m ((c : Thread nD τ).loc main_arg5)) :=
  Bridge.convArr_eq_convOf _ _ _ _ _ _ _

/-- The second layer's features are the reference's, of the first layer's. -/
theorem feat2_eq : feat2 m c = convOf (aggOf (m ((c : Thread nD τ).loc main_arg1)) (feat1 m c)) (feat1 m c) (m ((c : Thread nD τ).loc main_arg6)) (m ((c : Thread nD τ).loc main_arg7)) (m ((c : Thread nD τ).loc main_arg8)) :=
  Bridge.convArr_eq_convOf _ _ _ _ _ _ _

/-- The result buffer ends holding the network of the arguments. -/
theorem result_eq : W6 m ρ c (Proc.devRef .tc main_v47)
    = netOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  rw [W6_v47, Bridge.headArr_eq_headOf, feat2_eq, feat1_eq]
  rfl

end Cert.KernelIdeal.HostValue

end
-- ==== Proof.lean ====
/-
  Two graph-convolution layers, a per-graph mean and a two-layer head: the kernel program against its reference, on the
  extended reals.

  Both programs aggregate each node's neighbours with the same host operations (rows gathered at the edges' sources,
  added at the edges' targets), so aggregation is carried as one function and never opened; likewise the per-graph
  mean. The kernel computes each layer's dense part as ONE product — aggregated and own features side by side, times the
  two weight matrices stacked — plus a bias row, where the reference adds two products and a bias vector; and its
  head as the reference's with the biases made rows. A sum over an axis of 256 is the sum over its two halves, and
  addition of extended reals is commutative and associative without exception, so the two layers agree on every input:
  the precondition's finiteness is not used. Changes of float format are the identity on the extended reals.

  The kernel program's frames are generated; its result is read off the same run (`RunValue.run_result`), boundary by
  boundary (`HostValue`), each launch's output array as one function of its inputs (`Layers`). The reference's run and
  its stages are generated; its result is the network by unfolding (`RefValue.val_eq_net`).
-/
import proofs.«144735_j15539191677055_2_alg».proof.Defs
import proofs.«144735_j15539191677055_2_alg».proof.Proof.Gen.Kernel
import proofs.«144735_j15539191677055_2_alg».proof.Proof.Gen.Kernel.Skeleton
import proofs.«144735_j15539191677055_2_alg».proof.Proof.Gen.Kernel.Launch
import proofs.«144735_j15539191677055_2_alg».proof.Proof.Gen.Kernel.Points
import proofs.«144735_j15539191677055_2_alg».proof.Proof.Gen.Kernel.Frame
import proofs.«144735_j15539191677055_2_alg».proof.Proof.Gen.KernelIdeal
import proofs.«144735_j15539191677055_2_alg».proof.Proof.Gen.KernelIdeal.Skeleton
import proofs.«144735_j15539191677055_2_alg».proof.Proof.Gen.KernelIdeal.Launch
import proofs.«144735_j15539191677055_2_alg».proof.Proof.Gen.KernelIdeal.Points
import proofs.«144735_j15539191677055_2_alg».proof.Proof.Gen.KernelIdeal.Frame
import proofs.«144735_j15539191677055_2_alg».proof.Proof.Gen.ReferenceIdeal
import proofs.«144735_j15539191677055_2_alg».proof.Proof.Gen.Pre_finite_inputs
import proofs.«144735_j15539191677055_2_alg».proof.Proof.Gen.ReferenceIdeal.Read
import proofs.«144735_j15539191677055_2_alg».proof.Proof.KernelRun
import proofs.«144735_j15539191677055_2_alg».proof.Proof.KernelValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- From memories agreeing on the arguments both programs end with the network of the arguments as their result. -/
theorem algebraic : Cert.algebraic_KernelIdeal_ReferenceIdeal := by
  intro m ρ m' ρ' _ hagree
  refine ⟨fun c => Cert.ReferenceIdeal.RefValue.netOf (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)), ?_, ?_⟩
  · exact (θ_run Cert.KernelIdeal.defs _ _).mono
      (fun r h c => ⟨(h c).1.trans (Cert.KernelIdeal.HostValue.result_eq m ρ c), (h c).2⟩)
      (Cert.KernelIdeal.RunValue.run_result (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v58_eq, Cert.ReferenceIdeal.RefValue.val_eq_net]
    obtain ⟨h0, h1, h2, h3, h4, h5, h6, h7, h8, h9, h10, h11, h12⟩ := hagree c
    rw [h0, h1, h2, h3, h4, h5, h6, h7, h8, h9, h10, h11, h12]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
